-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x2048 .f32 .bf16
  ∧ IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x64 : Shape := ⟨3, ![4, 8192, 64]⟩
abbrev S4x8192x2048 : Shape := ⟨3, ![4, 8192, 2048]⟩
abbrev S64x64 : Shape := ⟨2, ![64, 64]⟩
abbrev S64 : Shape := ⟨1, ![64]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x8192x2048 : S_.BroadcastsInDim S4x8192x2048 (![] : Fin 0 → Fin S4x8192x2048.rank)
  reducesTo_S4x8192x2048_S_d0_1_2 : S4x8192x2048.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x8192x64 .f32) (main_arg1 : FVec F S4x8192x2048 .f32) (main_arg2 : FVec F S64x64 .f32) (main_arg3 : FVec F S64 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x2048 .f32 := Host.absf main_arg1
  let main_cst_0 : FVec F S_ .f32 := constant S_ .f32 0x7F800000#32
  let main_v5 : FVec F S4x8192x2048 .f32 := broadcastInDim S4x8192x2048 ![] bcast_S_S4x8192x2048 main_cst_0
  let main_v6 : IVec S4x8192x2048 1 := cmpf .olt main_v4 main_v5
  let main_c_1 : IVec S_ 1 := constantI S_ 1 1#1
  let main_v7 : IVec S_ 1 := (fun x v => Host.reduce IntOp.andi x v reducesTo_S4x8192x2048_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x8192x64 : Shape := ⟨3, ![4, 8192, 64]⟩
abbrev S4x8192x2048 : Shape := ⟨3, ![4, 8192, 2048]⟩
abbrev S64x64 : Shape := ⟨2, ![64, 64]⟩
abbrev S64 : Shape := ⟨1, ![64]⟩
abbrev S4x64x2048 : Shape := ⟨3, ![4, 64, 2048]⟩
abbrev S1x1024x2048 : Shape := ⟨3, ![1, 1024, 2048]⟩
abbrev S1x1024x64 : Shape := ⟨3, ![1, 1024, 64]⟩
abbrev S1x64x2048 : Shape := ⟨3, ![1, 64, 2048]⟩
abbrev S64x2048 : Shape := ⟨2, ![64, 2048]⟩
abbrev S1x2048 : Shape := ⟨2, ![1, 2048]⟩
abbrev S1024x2048 : Shape := ⟨2, ![1024, 2048]⟩
abbrev S2048 : Shape := ⟨1, ![2048]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x8192x64, .f32⟩
  | .hbm, ⟨1, _⟩ => ⟨S4x8192x2048, .f32⟩
  | .hbm, ⟨2, _⟩ => ⟨S64x64, .f32⟩
  | .hbm, ⟨3, _⟩ => ⟨S64, .f32⟩
  | .hbm, ⟨4, _⟩ => ⟨S4x64x2048, .f32⟩
  | .hbm, ⟨5, _⟩ => ⟨S1x64, .f32⟩
  | .hbm, ⟨6, _⟩ => ⟨S4x8192x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x64, .f32⟩
  | .local _ .vmem, ⟨3, _⟩ => ⟨S1x1024x64, .f32⟩
  | .local _ .vmem, ⟨4, _⟩ => ⟨S64x64, .f32⟩
  | .local _ .vmem, ⟨5, _⟩ => ⟨S1x64x2048, .f32⟩
  | .local _ .vmem, ⟨6, _⟩ => ⟨S1x64x2048, .f32⟩
  | .local _ .vmem, ⟨7, _⟩ => ⟨S64x2048, .f32⟩
  | .local _ .vmem, ⟨8, _⟩ => ⟨S1x2048, .f32⟩
  | .local _ .vmem, ⟨9, _⟩ => ⟨S1x1024x2048, .f32⟩
  | .local _ .vmem, ⟨10, _⟩ => ⟨S1x1024x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64, .f32⟩
  | .local _ .vmem, ⟨14, _⟩ => ⟨S1x1024x64, .f32⟩
  | .local _ .vmem, ⟨15, _⟩ => ⟨S1x1024x64, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  reduces_S1024x2048_S2048 : S1024x2048.Reduces [0] S2048
  shapeCasts_S2048_S1x2048 : S2048.ShapeCasts S1x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x64_S64x64_0_0 : ∀ a, (![0, 0] : Fin 2 → Nat) a + S64x64.size a ≤ S64x64.size a
  h_S64x64 : 0 < S64x64.numel
  broadcasts_S1x2048_S64x2048 : S1x2048.Broadcasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  shapeCasts_S64_S1x64 : S64.ShapeCasts S1x64
  reduces_S1024x2048_S1024 : S1024x2048.Reduces [1] S1024
  shapeCasts_S1024_S1024x1 : S1024.ShapeCasts S1024x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1024x1_S1024x64 : S1024x1.Broadcasts S1024x64
  broadcasts_S1x64_S1024x64 : S1x64.Broadcasts S1024x64
  shapeCasts_S1024x64_S1x1024x64 : S1024x64.ShapeCasts S1x1024x64
  dot_S1024x64_S64x64_S1024x64_1_0_0_1_n_n_wf : DotDims.WF S1024x64 S64x64 S1024x64 [1] [0] [0] [1] [] []
  dot_S1024x64_S1024x2048_S64x2048_0_0_1_1_n_n_wf : DotDims.WF S1024x64 S1024x2048 S64x2048 [0] [0] [1] [1] [] []
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x8192x2048.size a
  hwx0_0 : ∀ i : grid0.Coords, EltTy.bits .f32 = 32 ∨ (Rect.block (s := S4x8192x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x8192x64.size a
  hwx0_1 : ∀ i : grid0.Coords, EltTy.bits .f32 = 32 ∨ (Rect.block (s := S4x8192x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S4x64x2048.size a
  hwx0_3 : ∀ i : grid0.Coords, EltTy.bits .f32 = 32 ∨ (Rect.block (s := S4x64x2048) S1x64x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S4x8192x2048.size a
  hwx1_0 : ∀ i : grid1.Coords, EltTy.bits .f32 = 32 ∨ (Rect.block (s := S4x8192x2048) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x2048.size a ≤ S4x64x2048.size a
  hwx1_1 : ∀ i : grid1.Coords, EltTy.bits .f32 = 32 ∨ (Rect.block (s := S4x64x2048) S1x64x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x8192x64.size a
  hwx1_3 : ∀ i : grid1.Coords, EltTy.bits .f32 = 32 ∨ (Rect.block (s := S4x8192x64) S1x1024x64.size (cc1_transform_3 i) (hinb1_3 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S1024x2048_S64x2048_0_0_1_1_n_n : DotDims S1024x64 S1024x2048 S64x2048 where
  lhsContracting := [0]
  rhsContracting := [0]
  lhsNonContracting := [1]
  rhsNonContracting := [1]
  lhsBatch := []
  rhsBatch := []
  wf := dot_S1024x64_S1024x2048_S64x2048_0_0_1_1_n_n_wf
def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8192x64 : Shape := ⟨3, ![4, 8192, 64]⟩
abbrev S4x8192x2048 : Shape := ⟨3, ![4, 8192, 2048]⟩
abbrev S64x64 : Shape := ⟨2, ![64, 64]⟩
abbrev S64 : Shape := ⟨1, ![64]⟩
abbrev S_ : Shape := ⟨0, ![]⟩
abbrev S4x2048 : Shape := ⟨2, ![4, 2048]⟩
abbrev S4x2048x64 : Shape := ⟨3, ![4, 2048, 64]⟩
abbrev S4x2048x1 : Shape := ⟨3, ![4, 2048, 1]⟩
abbrev S4x8192 : Shape := ⟨2, ![4, 8192]⟩
abbrev S4x8192x1 : Shape := ⟨3, ![4, 8192, 1]⟩
abbrev S1x1x64 : Shape := ⟨3, ![1, 1, 64]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x2048, .f32⟩
  | .hbm, ⟨2, _⟩ => ⟨S64x64, .f32⟩
  | .hbm, ⟨3, _⟩ => ⟨S64, .f32⟩
  | .hbm, ⟨4, _⟩ => ⟨S4x8192x64, .f32⟩
  | .hbm, ⟨5, _⟩ => ⟨S_, .f32⟩
  | .hbm, ⟨6, _⟩ => ⟨S4x2048, .f32⟩
  | .hbm, ⟨7, _⟩ => ⟨S4x2048x64, .f32⟩
  | .hbm, ⟨8, _⟩ => ⟨S4x2048x1, .f32⟩
  | .hbm, ⟨9, _⟩ => ⟨S4x2048x64, .f32⟩
  | .hbm, ⟨10, _⟩ => ⟨S4x2048x64, .f32⟩
  | .hbm, ⟨11, _⟩ => ⟨S_, .f32⟩
  | .hbm, ⟨12, _⟩ => ⟨S4x8192, .f32⟩
  | .hbm, ⟨13, _⟩ => ⟨S4x8192x64, .f32⟩
  | .hbm, ⟨14, _⟩ => ⟨S4x8192x1, .f32⟩
  | .hbm, ⟨15, _⟩ => ⟨S4x8192x64, .f32⟩
  | .hbm, ⟨16, _⟩ => ⟨S4x8192x64, .f32⟩
  | .hbm, ⟨17, _⟩ => ⟨S1x1x64, .f32⟩
  | .hbm, ⟨18, _⟩ => ⟨S4x8192x64, .f32⟩
  | .hbm, ⟨19, _⟩ => ⟨S4x8192x64, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S4x8192x2048_S4x2048_d1 : S4x8192x2048.ReducesTo [1] S4x2048
  h_S_ : 0 < S_.numel
  bcast_S4x2048_S4x2048x1_0_1 : S4x2048.BroadcastsInDim S4x2048x1 (![0, 1] : Fin 2 → Fin S4x2048x1.rank)
  bcast_S4x2048x1_S4x2048x64_0_1_2 : S4x2048x1.BroadcastsInDim S4x2048x64 (![0, 1, 2] : Fin 3 → Fin S4x2048x64.rank)
  reducesTo_S4x8192x2048_S4x8192_d2 : S4x8192x2048.ReducesTo [2] S4x8192
  bcast_S4x8192_S4x8192x1_0_1 : S4x8192.BroadcastsInDim S4x8192x1 (![0, 1] : Fin 2 → Fin S4x8192x1.rank)
  bcast_S4x8192x1_S4x8192x64_0_1_2 : S4x8192x1.BroadcastsInDim S4x8192x64 (![0, 1, 2] : Fin 3 → Fin S4x8192x64.rank)
  bcast_S64_S1x1x64_2 : S64.BroadcastsInDim S1x1x64 (![2] : Fin 1 → Fin S1x1x64.rank)
  bcast_S1x1x64_S4x8192x64_0_1_2 : S1x1x64.BroadcastsInDim S4x8192x64 (![0, 1, 2] : Fin 3 → Fin S4x8192x64.rank)
  dot_S4x8192x64_S64x64_S4x8192x64_2_0_01_1_n_n_wf : DotDims.WF S4x8192x64 S64x64 S4x8192x64 [2] [0] [0, 1] [1] [] []
  dot_S4x8192x2048_S4x8192x64_S4x2048x64_1_1_2_2_0_0_wf : DotDims.WF S4x8192x2048 S4x8192x64 S4x2048x64 [1] [1] [2] [2] [0] [0]
  dot_S4x8192x2048_S4x2048x64_S4x8192x64_2_1_1_2_0_0_wf : DotDims.WF S4x8192x2048 S4x2048x64 S4x8192x64 [2] [1] [1] [2] [0] [0]

variable [Facts₀]

def dot_S4x8192x64_S64x64_S4x8192x64_2_0_01_1_n_n : DotDims S4x8192x64 S64x64 S4x8192x64 where
  lhsContracting := [2]
  rhsContracting := [0]
  lhsNonContracting := [0, 1]
  rhsNonContracting := [1]
  lhsBatch := []
  rhsBatch := []
  wf := dot_S4x8192x64_S64x64_S4x8192x64_2_0_01_1_n_n_wf
def dot_S4x8192x2048_S4x8192x64_S4x2048x64_1_1_2_2_0_0 : DotDims S4x8192x2048 S4x8192x64 S4x2048x64 where
  lhsContracting := [1]
  rhsContracting := [1]
  lhsNonContracting := [2]
  rhsNonContracting := [2]
  lhsBatch := [0]
  rhsBatch := [0]
  wf := dot_S4x8192x2048_S4x8192x64_S4x2048x64_1_1_2_2_0_0_wf
def dot_S4x8192x2048_S4x2048x64_S4x8192x64_2_1_1_2_0_0 : DotDims S4x8192x2048 S4x2048x64 S4x8192x64 where
  lhsContracting := [2]
  rhsContracting := [1]
  lhsNonContracting := [1]
  rhsNonContracting := [2]
  lhsBatch := [0]
  rhsBatch := [0]
  wf := dot_S4x8192x2048_S4x2048x64_S4x8192x64_2_1_1_2_0_0_wf

class Facts : Prop extends Facts₀ where

variable [Facts]
-- ==== Proof.FrameBaseK.lean ====
/-
  What the two kernels' frame proofs share. The first kernel accumulates, over the eight node tiles of a batch,
  the products xᵀH and the column sums of H in two scratch buffers: at a batch's first tile it clears them, at
  the last it divides and stores the quotient. Its three control cases are told apart by the tile's number
  (the grid position modulo 8). The second kernel has a single case. Stated here: the branch conditions in closed
  form over the grid, where the first kernel's output window is idle, the staging and scratch memrefs, the
  blocks each window reads at a point, and that an input window's staging buffer holds its block at every point.
-/
import proofs.«104569_j11639361372554_2_alg».proof.Proof.Gen.Kernel.Launch
import proofs.«104569_j11639361372554_2_alg».proof.Proof.Gen.Kernel.Skeleton
import proofs.«104569_j11639361372554_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first kernel's branch conditions -/

/-- "This is a batch's first tile": the condition of the clearing branch, from the grid coordinates. -/
abbrev cond0_0 (i : grid0.Coords) : Prop := (Scalar.cmpi .ne (Scalar.extui (Scalar.cmpi .eq (BitVec.ofNat 32 (i 1).val) 0#32)) 0#32) = 1#1
/-- It holds at the positions ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is a batch's last tile": the condition of the dividing branch. -/
abbrev cond0_1 (i : grid0.Coords) : Prop := k0_cond2 i = 1#1
/-- It holds at the positions ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a batch's last tile nothing is stored into the output window, and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a batch's last tile the output window is stored into. -/
theorem liveAt0_3 : ∀ t : Fin cfg0.N, cond0_1 (grid0.coords t) → cfg0.idle 3 (grid0.coords t) = false := by decide +kernel

/-! ## The memrefs the first kernel's body is called with -/

abbrev VO0_3 : View sig .tc .vmem S1x64x2048 .f32 := (Memref.whole cc0_stg3_0 : Memref sig .tc .vmem S1x64x2048 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x2048 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S64x2048 .f32 := Memref.whole cc0_scratch0
abbrev scM0_1 : Memref sig .tc .vmem S1x2048 .f32 := Memref.whole cc0_scratch1
abbrev VS0_0 : View sig .tc .vmem S64x2048 .f32 := scM0_0.view
abbrev VS0_1 : View sig .tc .vmem S1x2048 .f32 := scM0_1.view

/-- The scoped buffers that are neither a staging buffer of the first kernel nor one of its accumulators, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of the first kernel, its accumulators named as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

section Regions
variable (V : (c : Dev nD) → (b : Ref sig .tc) → Buf (Elt F) ((c : Thread nD τ).loc b))

/-! ## The windows' blocks, at the contents `V` a kernel is entered with -/

/-- Window `w`'s block at point `t` of the first kernel's grid. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block at point `t` of the second kernel's grid. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.Kernel.Frm

end
-- ==== Proof.Run0AK.lean ====
/-
  The first kernel's body at a batch's FIRST tile: both accumulators are cleared, then hold this tile's
  contribution; nothing is stored into the output window, which is handed back as found. The pieces each
  accumulator ends with are found by running the body symbolically.
-/
import proofs.«104569_j11639361372554_2_alg».proof.Proof.FrameBaseK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case "first tile, not last": the pieces its stores leave in the output window (none) and in the
    two accumulators, with the proof that from whole memrefs — the inputs at their contents, the output window at
    contents handed back untouched, the accumulators at anything — it runs to the continuation holding them so. -/
noncomputable def kernelRun0_A (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) :
    Σ' (L3 : List (View.Piece (Elt F) S1x64x2048 .f32)) (LS0 : List (View.Piece (Elt F) S64x2048 .f32)), { LS1 : List (View.Piece (Elt F) S1x2048 .f32) //
      ∀ (xi3 : Vec F S1x64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__xe_kernel i arg2 harg2 arg3 harg3 arg4 harg4 arg5 harg5 arg6 harg6 arg7 harg7) K } := by
  refine ⟨[], ?_, ?_, fun xi3 E K => ?run⟩
  case run =>
    simp only [cc0__xe_kernel_eq_skeleton]; unfold cc0__xe_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Frm

end
-- ==== Proof.Run0BK.lean ====
/-
  The first kernel's body at a MIDDLE tile of a batch: each accumulator, holding what the tile before left, ends with
  this tile's contribution added; nothing is stored into the output window, which is handed back as found.
-/
import proofs.«104569_j11639361372554_2_alg».proof.Proof.FrameBaseK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case "neither first nor last tile": the pieces its stores leave in the output window (none) and
    in the two accumulators, with the proof that from whole memrefs — the inputs at their contents, the output window
    at contents handed back untouched, the accumulators at what the tile before left — it runs to the continuation. -/
noncomputable def kernelRun0_B (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) :
    Σ' (L3 : List (View.Piece (Elt F) S1x64x2048 .f32)) (LS0 : List (View.Piece (Elt F) S64x2048 .f32)), { LS1 : List (View.Piece (Elt F) S1x2048 .f32) //
      ∀ (xi3 : Vec F S1x64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__xe_kernel i arg2 harg2 arg3 harg3 arg4 harg4 arg5 harg5 arg6 harg6 arg7 harg7) K } := by
  refine ⟨[], ?_, ?_, fun xi3 E K => ?run⟩
  case run =>
    simp only [cc0__xe_kernel_eq_skeleton]; unfold cc0__xe_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Frm

end
-- ==== Proof.Run0CK.lean ====
/-
  The first kernel's body at a batch's LAST tile: each accumulator, holding what the tile before left, ends with
  this tile's contribution added, and the output window is stored whole with the quotient of the two.
-/
import proofs.«104569_j11639361372554_2_alg».proof.Proof.FrameBaseK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case "last tile, not first": the pieces its stores leave in the output window and in the two
    accumulators, with the proof that from whole memrefs — the inputs at their contents, the output window at
    anything, the accumulators at what the tile before left — it runs to the continuation holding them so. -/
noncomputable def kernelRun0_C (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) :
    Σ' (L3 : List (View.Piece (Elt F) S1x64x2048 .f32)) (LS0 : List (View.Piece (Elt F) S64x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__xe_kernel i arg2 harg2 arg3 harg3 arg4 harg4 arg5 harg5 arg6 harg6 arg7 harg7) K } := by
  refine ⟨?_, ?_, ?_, fun E K => ?run⟩
  case run =>
    simp only [cc0__xe_kernel_eq_skeleton]; unfold cc0__xe_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    iexists _; iexact HS1

end Cert.Kernel.Frm

end
-- ==== Proof.Region0K.lean ====
/-
  The first kernel as a pipeline's proof data. What its two accumulators and its output window hold after each grid
  position is defined by recursion on the position: at a batch's first tile the clearing case over the tile's
  blocks, otherwise the adding case over what the position before left, and at a batch's last tile also the stored
  quotient. The region invariant carries the accumulators at exactly these contents from one position to the next.
-/
import proofs.«104569_j11639361372554_2_alg».proof.Proof.Run0AK
import proofs.«104569_j11639361372554_2_alg».proof.Proof.Run0BK
import proofs.«104569_j11639361372554_2_alg».proof.Proof.Run0CK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- What the output window's buffer is said to hold where nothing is stored into it and it is not written back:
    a placeholder nothing consults. -/
def outIdle : Vec F S1x64x2048 .f32 := VO0_3.read (Elt F) (VO0_3.writes (Elt F) VO0_3.junk [])

/-! ## The first-tile case -/

theorem scover0_A_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) (y : S64x2048.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S64x2048.size (by sl_kernel_rfl) y
theorem scover0_A_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) (y : S1x2048.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x2048.size (by sl_kernel_rfl) y
/-- What the first-tile case leaves in the two accumulators. -/
def sout0_A_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) : Vec F S64x2048 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
def sout0_A_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) : Vec F S1x2048 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-! ## The middle-tile case -/

theorem scover0_B_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) (y : S64x2048.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S64x2048.size (by sl_kernel_rfl) y
theorem scover0_B_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) (y : S1x2048.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1x2048.size (by sl_kernel_rfl) y
/-- What the middle-tile case leaves in the two accumulators. -/
def sout0_B_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) : Vec F S64x2048 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
def sout0_B_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) : Vec F S1x2048 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-! ## The last-tile case -/

theorem cover0_C_3 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) (y : S1x64x2048.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x64x2048.size (by sl_kernel_rfl) y
theorem scover0_C_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) (y : S64x2048.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S64x2048.size (by sl_kernel_rfl) y
theorem scover0_C_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) (y : S1x2048.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x2048.size (by sl_kernel_rfl) y
/-- What the last-tile case leaves in the output window's buffer and in the two accumulators. -/
def out0_C_3 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) : Vec F S1x64x2048 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
def sout0_C_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) : Vec F S64x2048 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
def sout0_C_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) : Vec F S1x2048 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## One position's step, on the position's memrefs and blocks -/

def stepA (c : Dev nD) (t : Fin cfg0.N) (h0 : t.val % 8 = 0) (h1 : ¬t.val % 8 = 7) : Vec F S64x2048 .f32 × Vec F S1x2048 .f32 :=
  ((sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)),
   (sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)))
def stepB (c : Dev nD) (t : Fin cfg0.N) (h0 : ¬t.val % 8 = 0) (h1 : ¬t.val % 8 = 7) (xs0 : Vec F S64x2048 .f32) (xs1 : Vec F S1x2048 .f32) : Vec F S64x2048 .f32 × Vec F S1x2048 .f32 :=
  ((sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1),
   (sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1))
def stepC (c : Dev nD) (t : Fin cfg0.N) (h0 : ¬t.val % 8 = 0) (h1 : t.val % 8 = 7) (xs0 : Vec F S64x2048 .f32) (xs1 : Vec F S1x2048 .f32) : Vec F S1x64x2048 .f32 × Vec F S64x2048 .f32 × Vec F S1x2048 .f32 :=
  ((out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1),
   (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1),
   (sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1))

/-! ## What the buffers hold after each position -/

/-- THE ACCUMULATION: the output window's buffer and the two accumulators after the body at position `n`. -/
def outsAt0 (c : Dev nD) : (n : ℕ) → n < cfg0.N → Vec F S1x64x2048 .f32 × Vec F S64x2048 .f32 × Vec F S1x2048 .f32
  | 0, hn => (outIdle, stepA V c ⟨0, hn⟩ (Nat.zero_mod _) (show ¬(0 % 8 = 7) from by decide))
  | n + 1, hn =>
    if h0 : (n + 1) % 8 = 0 then
      if h1 : (n + 1) % 8 = 7 then
        False.elim (by omega)
      else
        (outIdle, stepA V c ⟨n + 1, hn⟩ h0 h1)
    else
      if h1 : (n + 1) % 8 = 7 then
        stepC V c ⟨n + 1, hn⟩ h0 h1 (outsAt0 c n (Nat.lt_of_succ_lt hn)).2.1 (outsAt0 c n (Nat.lt_of_succ_lt hn)).2.2
      else
        (outIdle, stepB V c ⟨n + 1, hn⟩ h0 h1 (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (outIdle, stepA V c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (outIdle, stepB V c t h0 h1 (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = stepC V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (every scoped buffer at anything); afterwards the two
    accumulators at what the position before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any position: the inputs' memrefs hold their blocks; the position's number modulo 8 says which case
    it is in; the invariant hands the body the accumulators at what the position before left (at anything at the very
    first position) and takes them back at this position's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 8 = 7
  · have h0 : ¬t.val % 8 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [outsAt0_C V c t h0 h1]
    unfold stepC out0_C_3 sout0_C_0 sout0_C_1; (try dsimp only)
    rw [PhiS_castSucc V c t, PhiS_pos V c _ _ hz]
    iintro ⟨⟨⟨HS0, HS1, Hrest⟩, Hg⟩, Ho, ⟨%d0, H0⟩, ⟨%d1, H1⟩, ⟨%d2, H2⟩, ⟨%d3, H3⟩⟩
    iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 Hrest Hg]
    · isplitr [Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 8 = 0
    · rw [outsAt0_A V c t h0 h1]
      unfold stepA sout0_A_0 sout0_A_1; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hrest Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hrest Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [outsAt0_B V c t h0 h1]
      unfold stepB sout0_B_0 sout0_B_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- After any position the invariant gives the class invariant back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitr [Hg]
  · isplitl [HS0]; · iexists _; iexact HS0
    isplitl [HS1]; · iexists _; iexact HS1
    iexact Hrest
  iexact Hg

theorem Phi_last0 (c : Dev nD) : (dat0 V c).Φ (Fin.last cfg0.N) ⊢ Pipeline.ΦA spec0 c :=
  Phi_out0 V c _ (by rw [Fin.val_last]; have : cfg0.N = 32 := N_0; omega)

theorem Phi_first0 (c : Dev nD) : (dat0 V c).Φ 0 = Pipeline.ΦA spec0 c := rfl

end Regions

end Cert.Kernel.Frm

end
-- ==== Proof.Run1K.lean ====
/-
  The second kernel's body (one control case): from a node tile's rows of H, the batch's normalized edge features
  and the bias row it stores the whole output block — the product H·xeᵀ divided by the rows' sums, plus the bias.
-/
import proofs.«104569_j11639361372554_2_alg».proof.Proof.FrameBaseK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: each a whole buffer -/

abbrev r1_H : Rect S1x1024x2048 := Rect.unit (s := S1x1024x2048) ![0, 0, 0] S1x1024x2048.size inb_S1x1024x2048_S1x1024x2048_0_0_0
abbrev r1_E : Rect S1x64x2048 := Rect.unit (s := S1x64x2048) ![0, 0, 0] S1x64x2048.size inb_S1x64x2048_S1x64x2048_0_0_0
abbrev r1_b : Rect S1x64 := Rect.unit (s := S1x64) ![0, 0] S1x64.size inb_S1x64_S1x64_0_0
abbrev r1_o : Rect S1x1024x64 := Rect.unit (s := S1x1024x64) ![0, 0, 0] S1x1024x64.size inb_S1x1024x64_S1x1024x64_0_0_0

/-- The output window's staging buffer after the body, from the three input blocks: its one store. -/
def out1_3 (x0 : Vec F S1x1024x2048 .f32) (x1 : Vec F S1x64x2048 .f32) (x2 : Vec F S1x64 .f32) : Vec F S1x1024x64 .f32 :=
  View.canon [⟨r1_o, k1_pay1 (View.ld x0 r1_H) (View.ld x1 r1_E) (View.ld x2 r1_b)⟩]

/-- The one store covers the buffer. -/
theorem cover1_3 (p0 : Vec F S1x1024x64 .f32) (y : S1x1024x64.Idx) :
    ∃ pc ∈ ([⟨r1_o, p0⟩] : List (View.Piece (Elt F) S1x1024x64 .f32)), y ∈ pc.1.set :=
  View.cover_of_tiled [⟨r1_o, p0⟩] S1x1024x64.size (by rfl) y

set_option maxHeartbeats 4000000 in
/-- The body on whole staging memrefs, the inputs' at contents `xW` and the output's at anything, runs to the
    continuation holding the inputs' as they were and the output's at `out1_3` of the inputs'. -/
theorem sound_kernel1 (c : Dev nD) (i : grid1.Coords) (E : Set ℕ) (arg2 : Memref sig .tc .vmem S1x1024x2048 .f32) (harg2 : arg2.IsWhole) (arg3 : Memref sig .tc .vmem S1x64x2048 .f32) (harg3 : arg3.IsWhole) (arg4 : Memref sig .tc .vmem S1x64 .f32) (harg4 : arg4.IsWhole) (arg5 : Memref sig .tc .vmem S1x1024x64 .f32) (harg5 : arg5.IsWhole)
    (x0 : Vec F S1x1024x2048 .f32) (x1 : Vec F S1x64x2048 .f32) (x2 : Vec F S1x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__xn_kernel i arg2 harg2 arg3 harg3 arg4 harg4 arg5 harg5) K := by
  simp only [cc1__xn_kernel_eq_skeleton]; unfold cc1__xn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.Kernel.Frm

end
-- ==== Proof.Region1K.lean ====
/-
  The second kernel as a pipeline's proof data: after the body at a grid position the three input windows' buffers
  hold their blocks and the output window's buffer the body's one store over them; the region invariant is the class's.
-/
import proofs.«104569_j11639361372554_2_alg».proof.Proof.Run1K

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c (grid1.coords t) Set.univ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.Kernel.Frm

end
-- ==== Proof.FrameK.lean ====
/-
  The program's run, from the launch to the return: the first kernel's region, the reshape of the bias to a row, the
  second kernel's region. The buffer contents at each boundary are a fold from the launch memory: a region replaces
  its windows' arrays by what its write-backs leave and keeps every other buffer. Every weakly fair execution ends
  with every unscoped buffer at the fold's last stage; the four arguments, written by nothing, read back to their
  launch contents, and the result buffer is what the second region's write-backs leave.
-/
import proofs.«104569_j11639361372554_2_alg».proof.Proof.Region0K
import proofs.«104569_j11639361372554_2_alg».proof.Proof.Region1K

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (the first kernel's entry). -/
abbrev W0 : Dev nD → Valuation τ sig (Elt F) := fun c b => m ((c : Dev nD), b)
abbrev V0r : (c : Dev nD) → (b : Ref sig .tc) → Buf (Elt F) ((c : Thread nD τ).loc b) := fun c b => W0 m c b
/-- After the first kernel: its arrays at what its write-backs leave, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the reshape of the bias (the second kernel's entry). -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the second kernel. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)

/-! ## The arguments end as launched -/

theorem W2_of_ne_v1 (c : Dev nD) (b : Ref sig .tc) (hb : b ≠ main_v1) : W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne_v1 m c main_arg0 (by decide)
    _ = W0 m c (Proc.devRef .tc main_arg0) := (W1_arr m c 1).trans (((dat0 (V0r m) c).arrAt_in 1 rfl _).trans (A_eq0 (V0r m) c 1))
    _ = m ((c : Thread nD τ).loc main_arg0) := rfl
theorem W1_main_arg1 (c : Dev nD) : W1 m c (Proc.devRef .tc main_arg1) = m ((c : Thread nD τ).loc main_arg1) :=
  (W1_arr m c 0).trans (((dat0 (V0r m) c).arrAt_in 0 rfl _).trans (A_eq0 (V0r m) c 0))
theorem W2_main_arg1 (c : Dev nD) : W2 m c (Proc.devRef .tc main_arg1) = m ((c : Thread nD τ).loc main_arg1) :=
  (W2_of_ne_v1 m c main_arg1 (by decide)).trans (W1_main_arg1 m c)
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2r m) c).arrAt_in 0 rfl _).trans (A_eq1 (V2r m) c 0))
    _ = m ((c : Thread nD τ).loc main_arg1) := W2_main_arg1 m c
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne_v1 m c main_arg2 (by decide)
    _ = W0 m c (Proc.devRef .tc main_arg2) := (W1_arr m c 2).trans (((dat0 (V0r m) c).arrAt_in 2 rfl _).trans (A_eq0 (V0r m) c 2))
    _ = m ((c : Thread nD τ).loc main_arg2) := rfl
theorem W1_main_arg3 (c : Dev nD) : W1 m c (Proc.devRef .tc main_arg3) = m ((c : Thread nD τ).loc main_arg3) :=
  W1_of_ne m c main_arg3 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne_v1 m c main_arg3 (by decide)
    _ = m ((c : Thread nD τ).loc main_arg3) := W1_main_arg3 m c

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from BI.Entails.refl _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every execution terminates, nothing faulting, with the four argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result buffer named: what the second kernel's write-backs leave in it. -/
theorem run_result (ρ : Dev nD → PrngReg) : θ_run defs (onTc (τ := τ) (main (F := F))) ⟨m, fun _ => 0, ρ⟩ (fun r => ∀ c : Dev nD,
      r.2.mem ((c.tc : Thread nD τ).loc main_v2) = (dat1 (V2r m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Frm

end
-- ==== Proof.FrameBaseI.lean ====
/-
  What the two kernels' frame proofs share. The first kernel accumulates, over the eight node tiles of a batch,
  the products xᵀH and the column sums of H in two scratch buffers: at a batch's first tile it clears them, at
  the last it divides and stores the quotient. Its three control cases are told apart by the tile's number
  (the grid position modulo 8). The second kernel has a single case. Stated here: the branch conditions in closed
  form over the grid, where the first kernel's output window is idle, the staging and scratch memrefs, the
  blocks each window reads at a point, and that an input window's staging buffer holds its block at every point.
-/
import proofs.«104569_j11639361372554_2_alg».proof.Proof.Gen.KernelIdeal.Launch
import proofs.«104569_j11639361372554_2_alg».proof.Proof.Gen.KernelIdeal.Skeleton
import proofs.«104569_j11639361372554_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first kernel's branch conditions -/

/-- "This is a batch's first tile": the condition of the clearing branch, from the grid coordinates. -/
abbrev cond0_0 (i : grid0.Coords) : Prop := (Scalar.cmpi .ne (Scalar.extui (Scalar.cmpi .eq (BitVec.ofNat 32 (i 1).val) 0#32)) 0#32) = 1#1
/-- It holds at the positions ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is a batch's last tile": the condition of the dividing branch. -/
abbrev cond0_1 (i : grid0.Coords) : Prop := k0_cond2 i = 1#1
/-- It holds at the positions ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a batch's last tile nothing is stored into the output window, and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a batch's last tile the output window is stored into. -/
theorem liveAt0_3 : ∀ t : Fin cfg0.N, cond0_1 (grid0.coords t) → cfg0.idle 3 (grid0.coords t) = false := by decide +kernel

/-! ## The memrefs the first kernel's body is called with -/

abbrev VO0_3 : View sig .tc .vmem S1x64x2048 .f32 := (Memref.whole cc0_stg3_0 : Memref sig .tc .vmem S1x64x2048 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x2048 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S64x2048 .f32 := Memref.whole cc0_scratch0
abbrev scM0_1 : Memref sig .tc .vmem S1x2048 .f32 := Memref.whole cc0_scratch1
abbrev VS0_0 : View sig .tc .vmem S64x2048 .f32 := scM0_0.view
abbrev VS0_1 : View sig .tc .vmem S1x2048 .f32 := scM0_1.view

/-- The scoped buffers that are neither a staging buffer of the first kernel nor one of its accumulators, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of the first kernel, its accumulators named as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

section Regions
variable (V : (c : Dev nD) → (b : Ref sig .tc) → Buf (Elt F) ((c : Thread nD τ).loc b))

/-! ## The windows' blocks, at the contents `V` a kernel is entered with -/

/-- Window `w`'s block at point `t` of the first kernel's grid. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block at point `t` of the second kernel's grid. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.KernelIdeal.Frm

end
-- ==== Proof.Run0AI.lean ====
/-
  The first kernel's body at a batch's FIRST tile: both accumulators are cleared, then hold this tile's
  contribution; nothing is stored into the output window, which is handed back as found. The pieces each
  accumulator ends with are found by running the body symbolically.
-/
import proofs.«104569_j11639361372554_2_alg».proof.Proof.FrameBaseI

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case "first tile, not last": the pieces its stores leave in the output window (none) and in the
    two accumulators, with the proof that from whole memrefs — the inputs at their contents, the output window at
    contents handed back untouched, the accumulators at anything — it runs to the continuation holding them so. -/
noncomputable def kernelRun0_A (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) :
    Σ' (L3 : List (View.Piece (Elt F) S1x64x2048 .f32)) (LS0 : List (View.Piece (Elt F) S64x2048 .f32)), { LS1 : List (View.Piece (Elt F) S1x2048 .f32) //
      ∀ (xi3 : Vec F S1x64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__xe_kernel i arg2 harg2 arg3 harg3 arg4 harg4 arg5 harg5 arg6 harg6 arg7 harg7) K } := by
  refine ⟨[], ?_, ?_, fun xi3 E K => ?run⟩
  case run =>
    simp only [cc0__xe_kernel_eq_skeleton]; unfold cc0__xe_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Frm

end
-- ==== Proof.Run0BI.lean ====
/-
  The first kernel's body at a MIDDLE tile of a batch: each accumulator, holding what the tile before left, ends with
  this tile's contribution added; nothing is stored into the output window, which is handed back as found.
-/
import proofs.«104569_j11639361372554_2_alg».proof.Proof.FrameBaseI

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case "neither first nor last tile": the pieces its stores leave in the output window (none) and
    in the two accumulators, with the proof that from whole memrefs — the inputs at their contents, the output window
    at contents handed back untouched, the accumulators at what the tile before left — it runs to the continuation. -/
noncomputable def kernelRun0_B (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) :
    Σ' (L3 : List (View.Piece (Elt F) S1x64x2048 .f32)) (LS0 : List (View.Piece (Elt F) S64x2048 .f32)), { LS1 : List (View.Piece (Elt F) S1x2048 .f32) //
      ∀ (xi3 : Vec F S1x64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__xe_kernel i arg2 harg2 arg3 harg3 arg4 harg4 arg5 harg5 arg6 harg6 arg7 harg7) K } := by
  refine ⟨[], ?_, ?_, fun xi3 E K => ?run⟩
  case run =>
    simp only [cc0__xe_kernel_eq_skeleton]; unfold cc0__xe_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Frm

end
-- ==== Proof.Run0CI.lean ====
/-
  The first kernel's body at a batch's LAST tile: each accumulator, holding what the tile before left, ends with
  this tile's contribution added, and the output window is stored whole with the quotient of the two.
-/
import proofs.«104569_j11639361372554_2_alg».proof.Proof.FrameBaseI

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case "last tile, not first": the pieces its stores leave in the output window and in the two
    accumulators, with the proof that from whole memrefs — the inputs at their contents, the output window at
    anything, the accumulators at what the tile before left — it runs to the continuation holding them so. -/
noncomputable def kernelRun0_C (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) :
    Σ' (L3 : List (View.Piece (Elt F) S1x64x2048 .f32)) (LS0 : List (View.Piece (Elt F) S64x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__xe_kernel i arg2 harg2 arg3 harg3 arg4 harg4 arg5 harg5 arg6 harg6 arg7 harg7) K } := by
  refine ⟨?_, ?_, ?_, fun E K => ?run⟩
  case run =>
    simp only [cc0__xe_kernel_eq_skeleton]; unfold cc0__xe_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    iexists _; iexact HS1

end Cert.KernelIdeal.Frm

end
-- ==== Proof.Region0I.lean ====
/-
  The first kernel as a pipeline's proof data. What its two accumulators and its output window hold after each grid
  position is defined by recursion on the position: at a batch's first tile the clearing case over the tile's
  blocks, otherwise the adding case over what the position before left, and at a batch's last tile also the stored
  quotient. The region invariant carries the accumulators at exactly these contents from one position to the next.
-/
import proofs.«104569_j11639361372554_2_alg».proof.Proof.Run0AI
import proofs.«104569_j11639361372554_2_alg».proof.Proof.Run0BI
import proofs.«104569_j11639361372554_2_alg».proof.Proof.Run0CI

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- What the output window's buffer is said to hold where nothing is stored into it and it is not written back:
    a placeholder nothing consults. -/
def outIdle : Vec F S1x64x2048 .f32 := VO0_3.read (Elt F) (VO0_3.writes (Elt F) VO0_3.junk [])

/-! ## The first-tile case -/

theorem scover0_A_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) (y : S64x2048.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S64x2048.size (by sl_kernel_rfl) y
theorem scover0_A_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) (y : S1x2048.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x2048.size (by sl_kernel_rfl) y
/-- What the first-tile case leaves in the two accumulators. -/
def sout0_A_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) : Vec F S64x2048 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
def sout0_A_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i)
    (x0 : Vec F S1x1024x2048 .f32) (x1 : Vec F S1x1024x64 .f32) (x2 : Vec F S64x64 .f32) : Vec F S1x2048 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-! ## The middle-tile case -/

theorem scover0_B_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) (y : S64x2048.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S64x2048.size (by sl_kernel_rfl) y
theorem scover0_B_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) (y : S1x2048.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1x2048.size (by sl_kernel_rfl) y
/-- What the middle-tile case leaves in the two accumulators. -/
def sout0_B_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) : Vec F S64x2048 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
def sout0_B_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i)
    (x0 : Vec F S1x1024x2048 .f32) (x1 : Vec F S1x1024x64 .f32) (x2 : Vec F S64x64 .f32) (xs0 : Vec F S64x2048 .f32) (xs1 : Vec F S1x2048 .f32) : Vec F S1x2048 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-! ## The last-tile case -/

theorem cover0_C_3 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) (y : S1x64x2048.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x64x2048.size (by sl_kernel_rfl) y
theorem scover0_C_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) (y : S64x2048.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S64x2048.size (by sl_kernel_rfl) y
theorem scover0_C_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) (y : S1x2048.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x2048.size (by sl_kernel_rfl) y
/-- What the last-tile case leaves in the output window's buffer and in the two accumulators. -/
def out0_C_3 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) : Vec F S1x64x2048 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
def sout0_C_0 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) : Vec F S64x2048 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
def sout0_C_1 (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i)
    (x0 : Vec F S1x1024x2048 .f32) (x1 : Vec F S1x1024x64 .f32) (x2 : Vec F S64x64 .f32) (xs0 : Vec F S64x2048 .f32) (xs1 : Vec F S1x2048 .f32) : Vec F S1x2048 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## One position's step, on the position's memrefs and blocks -/

def stepA (c : Dev nD) (t : Fin cfg0.N) (h0 : t.val % 8 = 0) (h1 : ¬t.val % 8 = 7) : Vec F S64x2048 .f32 × Vec F S1x2048 .f32 :=
  ((sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)),
   (sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)))
def stepB (c : Dev nD) (t : Fin cfg0.N) (h0 : ¬t.val % 8 = 0) (h1 : ¬t.val % 8 = 7) (xs0 : Vec F S64x2048 .f32) (xs1 : Vec F S1x2048 .f32) : Vec F S64x2048 .f32 × Vec F S1x2048 .f32 :=
  ((sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1),
   (sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1))
def stepC (c : Dev nD) (t : Fin cfg0.N) (h0 : ¬t.val % 8 = 0) (h1 : t.val % 8 = 7) (xs0 : Vec F S64x2048 .f32) (xs1 : Vec F S1x2048 .f32) : Vec F S1x64x2048 .f32 × Vec F S64x2048 .f32 × Vec F S1x2048 .f32 :=
  ((out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1),
   (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1),
   (sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1))

/-! ## What the buffers hold after each position -/

/-- THE ACCUMULATION: the output window's buffer and the two accumulators after the body at position `n`. -/
def outsAt0 (c : Dev nD) : (n : ℕ) → n < cfg0.N → Vec F S1x64x2048 .f32 × Vec F S64x2048 .f32 × Vec F S1x2048 .f32
  | 0, hn => (outIdle, stepA V c ⟨0, hn⟩ (Nat.zero_mod _) (show ¬(0 % 8 = 7) from by decide))
  | n + 1, hn =>
    if h0 : (n + 1) % 8 = 0 then
      if h1 : (n + 1) % 8 = 7 then
        False.elim (by omega)
      else
        (outIdle, stepA V c ⟨n + 1, hn⟩ h0 h1)
    else
      if h1 : (n + 1) % 8 = 7 then
        stepC V c ⟨n + 1, hn⟩ h0 h1 (outsAt0 c n (Nat.lt_of_succ_lt hn)).2.1 (outsAt0 c n (Nat.lt_of_succ_lt hn)).2.2
      else
        (outIdle, stepB V c ⟨n + 1, hn⟩ h0 h1 (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (outIdle, stepA V c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (outIdle, stepB V c t h0 h1 (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = stepC V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (every scoped buffer at anything); afterwards the two
    accumulators at what the position before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any position: the inputs' memrefs hold their blocks; the position's number modulo 8 says which case
    it is in; the invariant hands the body the accumulators at what the position before left (at anything at the very
    first position) and takes them back at this position's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 8 = 7
  · have h0 : ¬t.val % 8 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [outsAt0_C V c t h0 h1]
    unfold stepC out0_C_3 sout0_C_0 sout0_C_1; (try dsimp only)
    rw [PhiS_castSucc V c t, PhiS_pos V c _ _ hz]
    iintro ⟨⟨⟨HS0, HS1, Hrest⟩, Hg⟩, Ho, ⟨%d0, H0⟩, ⟨%d1, H1⟩, ⟨%d2, H2⟩, ⟨%d3, H3⟩⟩
    iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 Hrest Hg]
    · isplitr [Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 8 = 0
    · rw [outsAt0_A V c t h0 h1]
      unfold stepA sout0_A_0 sout0_A_1; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hrest Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hrest Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [outsAt0_B V c t h0 h1]
      unfold stepB sout0_B_0 sout0_B_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- After any position the invariant gives the class invariant back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitr [Hg]
  · isplitl [HS0]; · iexists _; iexact HS0
    isplitl [HS1]; · iexists _; iexact HS1
    iexact Hrest
  iexact Hg

theorem Phi_last0 (c : Dev nD) : (dat0 V c).Φ (Fin.last cfg0.N) ⊢ Pipeline.ΦA spec0 c :=
  Phi_out0 V c _ (by rw [Fin.val_last]; have : cfg0.N = 32 := N_0; omega)

theorem Phi_first0 (c : Dev nD) : (dat0 V c).Φ 0 = Pipeline.ΦA spec0 c := rfl

end Regions

end Cert.KernelIdeal.Frm

end
-- ==== Proof.Run1I.lean ====
/-
  The second kernel's body (one control case): from a node tile's rows of H, the batch's normalized edge features
  and the bias row it stores the whole output block — the product H·xeᵀ divided by the rows' sums, plus the bias.
-/
import proofs.«104569_j11639361372554_2_alg».proof.Proof.FrameBaseI

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: each a whole buffer -/

abbrev r1_H : Rect S1x1024x2048 := Rect.unit (s := S1x1024x2048) ![0, 0, 0] S1x1024x2048.size inb_S1x1024x2048_S1x1024x2048_0_0_0
abbrev r1_E : Rect S1x64x2048 := Rect.unit (s := S1x64x2048) ![0, 0, 0] S1x64x2048.size inb_S1x64x2048_S1x64x2048_0_0_0
abbrev r1_b : Rect S1x64 := Rect.unit (s := S1x64) ![0, 0] S1x64.size inb_S1x64_S1x64_0_0
abbrev r1_o : Rect S1x1024x64 := Rect.unit (s := S1x1024x64) ![0, 0, 0] S1x1024x64.size inb_S1x1024x64_S1x1024x64_0_0_0

/-- The output window's staging buffer after the body, from the three input blocks: its one store. -/
def out1_3 (x0 : Vec F S1x1024x2048 .f32) (x1 : Vec F S1x64x2048 .f32) (x2 : Vec F S1x64 .f32) : Vec F S1x1024x64 .f32 :=
  View.canon [⟨r1_o, k1_pay1 (View.ld x0 r1_H) (View.ld x1 r1_E) (View.ld x2 r1_b)⟩]

/-- The one store covers the buffer. -/
theorem cover1_3 (p0 : Vec F S1x1024x64 .f32) (y : S1x1024x64.Idx) :
    ∃ pc ∈ ([⟨r1_o, p0⟩] : List (View.Piece (Elt F) S1x1024x64 .f32)), y ∈ pc.1.set :=
  View.cover_of_tiled [⟨r1_o, p0⟩] S1x1024x64.size (by rfl) y

set_option maxHeartbeats 4000000 in
/-- The body on whole staging memrefs, the inputs' at contents `xW` and the output's at anything, runs to the
    continuation holding the inputs' as they were and the output's at `out1_3` of the inputs'. -/
theorem sound_kernel1 (c : Dev nD) (i : grid1.Coords) (E : Set ℕ) (arg2 : Memref sig .tc .vmem S1x1024x2048 .f32) (harg2 : arg2.IsWhole) (arg3 : Memref sig .tc .vmem S1x64x2048 .f32) (harg3 : arg3.IsWhole) (arg4 : Memref sig .tc .vmem S1x64 .f32) (harg4 : arg4.IsWhole) (arg5 : Memref sig .tc .vmem S1x1024x64 .f32) (harg5 : arg5.IsWhole)
    (x0 : Vec F S1x1024x2048 .f32) (x1 : Vec F S1x64x2048 .f32) (x2 : Vec F S1x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__xn_kernel i arg2 harg2 arg3 harg3 arg4 harg4 arg5 harg5) K := by
  simp only [cc1__xn_kernel_eq_skeleton]; unfold cc1__xn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.KernelIdeal.Frm

end
-- ==== Proof.Region1I.lean ====
/-
  The second kernel as a pipeline's proof data: after the body at a grid position the three input windows' buffers
  hold their blocks and the output window's buffer the body's one store over them; the region invariant is the class's.
-/
import proofs.«104569_j11639361372554_2_alg».proof.Proof.Run1I

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c (grid1.coords t) Set.univ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Frm

end
-- ==== Proof.FrameI.lean ====
/-
  The program's run, from the launch to the return: the first kernel's region, the reshape of the bias to a row, the
  second kernel's region. The buffer contents at each boundary are a fold from the launch memory: a region replaces
  its windows' arrays by what its write-backs leave and keeps every other buffer. Every weakly fair execution ends
  with every unscoped buffer at the fold's last stage; the four arguments, written by nothing, read back to their
  launch contents, and the result buffer is what the second region's write-backs leave.
-/
import proofs.«104569_j11639361372554_2_alg».proof.Proof.Region0I
import proofs.«104569_j11639361372554_2_alg».proof.Proof.Region1I

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (the first kernel's entry). -/
abbrev W0 : Dev nD → Valuation τ sig (Elt F) := fun c b => m ((c : Dev nD), b)
abbrev V0r : (c : Dev nD) → (b : Ref sig .tc) → Buf (Elt F) ((c : Thread nD τ).loc b) := fun c b => W0 m c b
/-- After the first kernel: its arrays at what its write-backs leave, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the reshape of the bias (the second kernel's entry). -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the second kernel. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)

/-! ## The arguments end as launched -/

theorem W2_of_ne_v1 (c : Dev nD) (b : Ref sig .tc) (hb : b ≠ main_v1) : W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne_v1 m c main_arg0 (by decide)
    _ = W0 m c (Proc.devRef .tc main_arg0) := (W1_arr m c 1).trans (((dat0 (V0r m) c).arrAt_in 1 rfl _).trans (A_eq0 (V0r m) c 1))
    _ = m ((c : Thread nD τ).loc main_arg0) := rfl
theorem W1_main_arg1 (c : Dev nD) : W1 m c (Proc.devRef .tc main_arg1) = m ((c : Thread nD τ).loc main_arg1) :=
  (W1_arr m c 0).trans (((dat0 (V0r m) c).arrAt_in 0 rfl _).trans (A_eq0 (V0r m) c 0))
theorem W2_main_arg1 (c : Dev nD) : W2 m c (Proc.devRef .tc main_arg1) = m ((c : Thread nD τ).loc main_arg1) :=
  (W2_of_ne_v1 m c main_arg1 (by decide)).trans (W1_main_arg1 m c)
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2r m) c).arrAt_in 0 rfl _).trans (A_eq1 (V2r m) c 0))
    _ = m ((c : Thread nD τ).loc main_arg1) := W2_main_arg1 m c
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne_v1 m c main_arg2 (by decide)
    _ = W0 m c (Proc.devRef .tc main_arg2) := (W1_arr m c 2).trans (((dat0 (V0r m) c).arrAt_in 2 rfl _).trans (A_eq0 (V0r m) c 2))
    _ = m ((c : Thread nD τ).loc main_arg2) := rfl
theorem W1_main_arg3 (c : Dev nD) : W1 m c (Proc.devRef .tc main_arg3) = m ((c : Thread nD τ).loc main_arg3) :=
  W1_of_ne m c main_arg3 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne_v1 m c main_arg3 (by decide)
    _ = m ((c : Thread nD τ).loc main_arg3) := W1_main_arg3 m c

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from BI.Entails.refl _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every execution terminates, nothing faulting, with the four argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result buffer named: what the second kernel's write-backs leave in it. -/
theorem run_result (ρ : Dev nD → PrngReg) : θ_run defs (onTc (τ := τ) (main (F := F))) ⟨m, fun _ => 0, ρ⟩ (fun r => ∀ c : Dev nD,
      r.2.mem ((c.tc : Thread nD τ).loc main_v2) = (dat1 (V2r m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Frm

end
-- ==== Proof.Pieces0I.lean ====
/-
  What each case of the first kernel's body leaves in its buffers, as the body's own arithmetic over the tile's blocks
  and over what the accumulators held: at a batch's first tile the accumulators are cleared first, so they end at the
  tile's contribution added to zero; at the other tiles at the contribution added to what they held; at the last tile
  the output block is the quotient of the two accumulators' new contents.
-/
import proofs.«104569_j11639361372554_2_alg».proof.Proof.Region0I
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem soutA0_eq (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i) (x0 : Vec F S1x1024x2048 .f32) (x1 : Vec F S1x1024x64 .f32) (x2 : Vec F S64x64 .f32) :
    sout0_A_0 c i arg2 harg2 arg3 harg3 arg4 harg4 arg5 harg5 arg6 harg6 arg7 harg7 hc0 hc1 x0 x1 x2 = k0_pay4 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  try sl_unfold_words
  rw [View.canon_cons_unit_zero hz2, View.readCov_unit_zero (S := S64x2048) _ hz2]
  simp only [View.readAt_eq_ld, harg2.read_unread, harg3.read_unread, harg4.read_unread, harg6.read_unread, harg7.read_unread,
    View.ld_unit_zero (S := S1x1024x2048) hz3, View.ld_unit_zero (S := S1x1024x64) hz3, View.ld_unit_zero (S := S64x64) hz2,
    View.ld_unit_zero (S := S64x2048) hz2, View.ld_unit_zero (S := S1x2048) hz2]

theorem soutA1_eq (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : cond0_0 i) (hc1 : ¬cond0_1 i) (x0 : Vec F S1x1024x2048 .f32) (x1 : Vec F S1x1024x64 .f32) (x2 : Vec F S64x64 .f32) :
    sout0_A_1 c i arg2 harg2 arg3 harg3 arg4 harg4 arg5 harg5 arg6 harg6 arg7 harg7 hc0 hc1 x0 x1 x2 = k0_pay5 x0 (k0_pay2 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  try sl_unfold_words
  rw [View.canon_cons_unit_zero hz2, View.readCov_unit_zero (S := S1x2048) _ hz2]
  simp only [View.readAt_eq_ld, harg2.read_unread, harg3.read_unread, harg4.read_unread, harg6.read_unread, harg7.read_unread,
    View.ld_unit_zero (S := S1x1024x2048) hz3, View.ld_unit_zero (S := S1x1024x64) hz3, View.ld_unit_zero (S := S64x64) hz2,
    View.ld_unit_zero (S := S64x2048) hz2, View.ld_unit_zero (S := S1x2048) hz2]

theorem soutB0_eq (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i) (x0 : Vec F S1x1024x2048 .f32) (x1 : Vec F S1x1024x64 .f32) (x2 : Vec F S64x64 .f32) (xs0 : Vec F S64x2048 .f32) (xs1 : Vec F S1x2048 .f32) :
    sout0_B_0 c i arg2 harg2 arg3 harg3 arg4 harg4 arg5 harg5 arg6 harg6 arg7 harg7 hc0 hc1 x0 x1 x2 xs0 xs1 = k0_pay4 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  try sl_unfold_words
  rw [View.canon_unit_zero hz2]
  simp only [View.readAt_eq_ld, harg2.read_unread, harg3.read_unread, harg4.read_unread, harg6.read_unread, harg7.read_unread,
    View.ld_unit_zero (S := S1x1024x2048) hz3, View.ld_unit_zero (S := S1x1024x64) hz3, View.ld_unit_zero (S := S64x64) hz2,
    View.ld_unit_zero (S := S64x2048) hz2, View.ld_unit_zero (S := S1x2048) hz2]

theorem soutB1_eq (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : ¬cond0_1 i) (x0 : Vec F S1x1024x2048 .f32) (x1 : Vec F S1x1024x64 .f32) (x2 : Vec F S64x64 .f32) (xs0 : Vec F S64x2048 .f32) (xs1 : Vec F S1x2048 .f32) :
    sout0_B_1 c i arg2 harg2 arg3 harg3 arg4 harg4 arg5 harg5 arg6 harg6 arg7 harg7 hc0 hc1 x0 x1 x2 xs0 xs1 = k0_pay5 x0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  try sl_unfold_words
  rw [View.canon_unit_zero hz2]
  simp only [View.readAt_eq_ld, harg2.read_unread, harg3.read_unread, harg4.read_unread, harg6.read_unread, harg7.read_unread,
    View.ld_unit_zero (S := S1x1024x2048) hz3, View.ld_unit_zero (S := S1x1024x64) hz3, View.ld_unit_zero (S := S64x64) hz2,
    View.ld_unit_zero (S := S64x2048) hz2, View.ld_unit_zero (S := S1x2048) hz2]

theorem soutC0_eq (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i) (x0 : Vec F S1x1024x2048 .f32) (x1 : Vec F S1x1024x64 .f32) (x2 : Vec F S64x64 .f32) (xs0 : Vec F S64x2048 .f32) (xs1 : Vec F S1x2048 .f32) :
    sout0_C_0 c i arg2 harg2 arg3 harg3 arg4 harg4 arg5 harg5 arg6 harg6 arg7 harg7 hc0 hc1 x0 x1 x2 xs0 xs1 = k0_pay4 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  try sl_unfold_words
  rw [View.canon_unit_zero hz2]
  simp only [View.readAt_eq_ld, harg2.read_unread, harg3.read_unread, harg4.read_unread, harg6.read_unread, harg7.read_unread,
    View.ld_unit_zero (S := S1x1024x2048) hz3, View.ld_unit_zero (S := S1x1024x64) hz3, View.ld_unit_zero (S := S64x64) hz2,
    View.ld_unit_zero (S := S64x2048) hz2, View.ld_unit_zero (S := S1x2048) hz2]

theorem soutC1_eq (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i) (x0 : Vec F S1x1024x2048 .f32) (x1 : Vec F S1x1024x64 .f32) (x2 : Vec F S64x64 .f32) (xs0 : Vec F S64x2048 .f32) (xs1 : Vec F S1x2048 .f32) :
    sout0_C_1 c i arg2 harg2 arg3 harg3 arg4 harg4 arg5 harg5 arg6 harg6 arg7 harg7 hc0 hc1 x0 x1 x2 xs0 xs1 = k0_pay5 x0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  try sl_unfold_words
  rw [View.canon_unit_zero hz2]
  simp only [View.readAt_eq_ld, harg2.read_unread, harg3.read_unread, harg4.read_unread, harg6.read_unread, harg7.read_unread,
    View.ld_unit_zero (S := S1x1024x2048) hz3, View.ld_unit_zero (S := S1x1024x64) hz3, View.ld_unit_zero (S := S64x64) hz2,
    View.ld_unit_zero (S := S64x2048) hz2, View.ld_unit_zero (S := S1x2048) hz2]

theorem outC3_eq (c : Dev nD) (i : grid0.Coords) (arg2 : Memref sig .tc .vmem S1x1024x2048 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S1x64x2048 .f32) (harg5 : arg5.IsWhole) (arg6 : Memref sig .tc .vmem S64x2048 .f32) (harg6 : arg6.IsWhole) (arg7 : Memref sig .tc .vmem S1x2048 .f32) (harg7 : arg7.IsWhole) (hc0 : ¬cond0_0 i) (hc1 : cond0_1 i) (x0 : Vec F S1x1024x2048 .f32) (x1 : Vec F S1x1024x64 .f32) (x2 : Vec F S64x64 .f32) (xs0 : Vec F S64x2048 .f32) (xs1 : Vec F S1x2048 .f32) :
    out0_C_3 c i arg2 harg2 arg3 harg3 arg4 harg4 arg5 harg5 arg6 harg6 arg7 harg7 hc0 hc1 x0 x1 x2 xs0 xs1 = k0_pay6 (k0_pay4 x0 x1 x2 xs0) (k0_pay5 x0 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  try sl_unfold_words
  rw [View.canon_unit_zero hz3, View.readCov_unit_zero (S := S64x2048) _ hz2, View.readCov_unit_zero (S := S1x2048) _ hz2]
  simp only [View.readAt_eq_ld, harg2.read_unread, harg3.read_unread, harg4.read_unread, harg6.read_unread, harg7.read_unread,
    View.ld_unit_zero (S := S1x1024x2048) hz3, View.ld_unit_zero (S := S1x1024x64) hz3, View.ld_unit_zero (S := S64x64) hz2,
    View.ld_unit_zero (S := S64x2048) hz2, View.ld_unit_zero (S := S1x2048) hz2]

end Cert.KernelIdeal.Frm

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibColsDot.lean ====
/-
  A matrix product against a transposed left operand, read at an index.

  The dimension numbers of `[K, a] × [K, b] → [a, b]` — contract the left operand's axis 0 with the right operand's axis 0, no
  batch axis — are those of `lᵀ · r` written without a transpose. On the extended reals the product, read at `(p, q)`, is the
  sum over `k` of `l (k, p) · r (k, q)`: column `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of columns with columns `[K, a] × [K, b] → [a, b]`, over any witness of their
    well-formedness. -/
abbrev colsDot (wf : DotDims.WF ⟨2, ![K, a]⟩ ⟨2, ![K, b]⟩ ⟨2, ![a, b]⟩ [0] [0] [1] [1] [] []) :
    DotDims ⟨2, ![K, a]⟩ ⟨2, ![K, b]⟩ ⟨2, ![a, b]⟩ where
  lhsContracting := [0]
  rhsContracting := [0]
  lhsNonContracting := [1]
  rhsNonContracting := [1]
  lhsBatch := []
  rhsBatch := []
  wf := wf

variable (wf : DotDims.WF ⟨2, ![K, a]⟩ ⟨2, ![K, b]⟩ ⟨2, ![a, b]⟩ [0] [0] [1] [1] [] [])

/-- Off the contracted axis the left operand is read at the column the result's row names, -/
theorem colsDot_lhs_col (i : (⟨2, ![a, b]⟩ : Shape).Idx) (κ : (colsDot wf).contr.Idx) :
    ((colsDot wf).lhsIdx i κ 1).val = (i 0).val := by
  unfold DotDims.lhsIdx
  rw [dif_neg (show ¬(1 : Fin (Shape.rank ⟨2, ![K, a]⟩)) ∈ (colsDot wf).lhsBatch from List.not_mem_nil),
    dif_pos (show (1 : Fin (Shape.rank ⟨2, ![K, a]⟩)) ∈ (colsDot wf).lhsNonContracting from List.mem_singleton.mpr rfl)]
  rfl

/-- and the right operand at the result's column. -/
theorem colsDot_rhs_col (i : (⟨2, ![a, b]⟩ : Shape).Idx) (κ : (colsDot wf).contr.Idx) :
    ((colsDot wf).rhsIdx i κ 1).val = (i 1).val := by
  unfold DotDims.rhsIdx
  rw [dif_neg (show ¬(1 : Fin (Shape.rank ⟨2, ![K, b]⟩)) ∈ (colsDot wf).rhsBatch from List.not_mem_nil),
    dif_pos (show (1 : Fin (Shape.rank ⟨2, ![K, b]⟩)) ∈ (colsDot wf).rhsNonContracting from List.mem_singleton.mpr rfl)]
  rfl

/-- At result index `(p, q)` and contraction position `k` the left operand is read at `(k, p)`. -/
theorem colsDot_lhsIdx (p : Fin a) (q : Fin b) (k : Fin K) :
    (colsDot wf).lhsIdx (ix2 p q) ((contrEquiv1 (colsDot wf) K rfl rfl).symm k) = ix2 k p :=
  funext fun ax => Fin.ext (by
    match ax with
    | ⟨0, _⟩ =>
      exact ((colsDot wf).lhsIdx_val_of_single rfl _ _).trans (contrEquiv1_symm_val (colsDot wf) K rfl rfl k)
    | ⟨1, _⟩ => exact colsDot_lhs_col wf _ _)

/-- … and the right operand at `(k, q)`. -/
theorem colsDot_rhsIdx (p : Fin a) (q : Fin b) (k : Fin K) :
    (colsDot wf).rhsIdx (ix2 p q) ((contrEquiv1 (colsDot wf) K rfl rfl).symm k) = ix2 k q :=
  funext fun ax => Fin.ext (by
    match ax with
    | ⟨0, _⟩ =>
      exact ((colsDot wf).rhsIdx_val_of_single rfl _ _).trans (contrEquiv1_symm_val (colsDot wf) K rfl rfl k)
    | ⟨1, _⟩ => exact colsDot_rhs_col wf _ _)

/-- The contraction of a product of columns with columns at `(p, q)`, re-indexed by the contracted coordinate. -/
theorem colsDot_sum {φ₁ φ₂ : FTy} (l : FVec Ideal ⟨2, ![K, a]⟩ φ₁) (r : FVec Ideal ⟨2, ![K, b]⟩ φ₂) (p : Fin a) (q : Fin b) :
    (∑ k : (colsDot wf).contr.Idx, l ((colsDot wf).lhsIdx (ix2 p q) k) * r ((colsDot wf).rhsIdx (ix2 p q) k))
      = ∑ k : Fin K, l (ix2 k p) * r (ix2 k q) := by
  rw [← Equiv.sum_comp (contrEquiv1 (colsDot wf) K rfl rfl).symm]
  refine Finset.sum_congr rfl fun k _ => ?_
  rw [colsDot_lhsIdx, colsDot_rhsIdx]

/-- A `tpu.matmul` of columns with columns at `(p, q)`: the accumulator's entry plus the column-by-column sum. -/
theorem matmul_cols_apply {φ₁ φ₂ : FTy} (prec : Option ContractPrecision) (l : FVec Ideal ⟨2, ![K, a]⟩ φ₁)
    (r : FVec Ideal ⟨2, ![K, b]⟩ φ₂) (acc : FVec Ideal ⟨2, ![a, b]⟩ .f32) (p : Fin a) (q : Fin b) :
    FloatOps.matmul (colsDot wf) prec l r acc (ix2 p q) = acc (ix2 p q) + ∑ k : Fin K, l (ix2 k p) * r (ix2 k q) := by
  rw [Ideal.matmul_apply, colsDot_sum]

/-- Into the zero accumulator: the column-by-column sum alone. -/
theorem matmul_cols_zero_apply {φ₁ φ₂ : FTy} (prec : Option ContractPrecision) (l : FVec Ideal ⟨2, ![K, a]⟩ φ₁)
    (r : FVec Ideal ⟨2, ![K, b]⟩ φ₂) (p : Fin a) (q : Fin b) :
    FloatOps.matmul (colsDot wf) prec l r (constant ⟨2, ![a, b]⟩ .f32 0x00000000#32) (ix2 p q)
      = ∑ k : Fin K, l (ix2 k p) * r (ix2 k q) := by
  rw [Ideal.matmul_constant_zero_apply, colsDot_sum]

/-- The host's `dot_general` of columns with columns at `(p, q)`: the same sum. -/
theorem dotGeneral_cols_apply {φ₁ φ₂ : FTy} (prec : Option ContractPrecision) (sched : HostSchedule)
    (l : FVec Ideal ⟨2, ![K, a]⟩ φ₁) (r : FVec Ideal ⟨2, ![K, b]⟩ φ₂) (p : Fin a) (q : Fin b) :
    FloatOps.dotGeneral (colsDot wf) prec sched l r (ix2 p q) = ∑ k : Fin K, l (ix2 k p) * r (ix2 k q) := by
  rw [Ideal.dotGeneral_apply, colsDot_sum]

end Cert.Lib

end
-- ==== Proof.LibColSum.lean ====
/-
  A column's sum read at an index.

  A `vector.multi_reduction <add>` of a `[K, R]` array over its FIRST axis, read on the extended reals at column `p`, is
  the sum of the `K` entries `src (k, p)` of that column: the reduced index `(p)` with the coordinate `k` put back on the
  reduced axis is `(k, p)`. The companion of the sum over the last axis of an `[R, K]` array.
-/
import Idealize.ShloMosaic.PureOps.Ideal.Laws
import Idealize.ShloMosaic.Lib.ValueIdx

noncomputable section

namespace Cert.Lib

open Idealize.ShloMosaic Idealize.ShloMosaic.ValueIdx
open scoped BigOperators

variable {K R : ℕ}

/-- The reduced index `(p)` with coordinate `k` inserted on axis 0 is `(k, p)`. -/
theorem lift_firstAxis2 (h : (⟨2, ![K, R]⟩ : Shape).Reduces [0] (⟨1, ![R]⟩ : Shape)) (p : Fin R)
    (k : Fin ((⟨2, ![K, R]⟩ : Shape).size 0)) : h.lift (ix1 p) k = ix2 (⟨k.val, k.isLt⟩ : Fin K) p := by
  funext c; apply Fin.ext
  fin_cases c <;> rfl

/-- A float sum over the first axis of a `[K, R]` array, at column `p`: the sum over that column. -/
theorem multiReduction_add_cols {φ : FTy} (src : FVec Ideal ⟨2, ![K, R]⟩ φ) (acc : BitVec φ.bits)
    (h : (⟨2, ![K, R]⟩ : Shape).Reduces [0] (⟨1, ![R]⟩ : Shape)) (hφ : FKind.Formats φ)
    (hacc : acc = FKind.add.neutral φ hφ) (p : Fin R) :
    multiReduction .add [0] (⟨1, ![R]⟩ : Shape) src acc h hφ hacc (ix1 p) = ∑ k : Fin K, src (ix2 k p) := by
  refine (Ideal.multiReduction_add_single src acc h hφ hacc (ix1 p)).trans ?_
  exact Finset.sum_congr rfl fun k _ => congrArg src (lift_firstAxis2 h p k)

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«104569_j11639361372554_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibSpread.lean ====
/-
  A vector spread over a matrix, read at an index.

  The layout chains by which a kernel body turns a vector into a matrix operand, each read at `(p, q)` as one entry of the
  vector. A vector of `a` entries laid as a column and repeated along `b` columns reads its entry `p`; a vector of `b`
  entries laid as a row and repeated down `a` rows reads its entry `q`; with row `l` of a stacked array as the vector, these
  are the two factors of an outer product of row `l` of one array with row `l` of another. Also a vector with two leading
  unit axes, `[1, 1, a]`, against the plain vector `[a]`, in both directions. Each is stated over any element type and
  over literal coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-- A vector laid as a column and repeated along `b` columns reads, at `(p, q)`, its entry `p`. -/
theorem column_spread_apply {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      rw [Nat.mul_one, Nat.add_zero])

/-- A vector laid as a row and repeated down `a` rows reads, at `(p, q)`, its entry `q`. -/
theorem row_spread_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc (0 : Fin 1) q)

/-- Row `l` of a matrix as a vector: entry `n` is the matrix's `(l, n)`. -/
theorem rowOf_apply {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- Row `l` of a stacked array spread as a column over `b` columns: at `(p, q)` the array's `(l, p)`. -/
theorem rowAsColumn_apply {n0 a b l : ℕ} (hl : l < n0) (X : (⟨2, ![n0, a]⟩ : Shape).Idx → α)
    (hs : (⟨2, ![n0, a]⟩ : Shape).Slices ![l, 0] ⟨2, ![1, a]⟩) (hc1 : (⟨2, ![1, a]⟩ : Shape).ShapeCasts ⟨1, ![a]⟩)
    (hc2 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (shapeCast ⟨1, ![a]⟩ (extractStridedSlice ⟨2, ![1, a]⟩ ![l, 0] X hs) hc1) hc2) hb
        (ix2 p q) = X (ix2 (⟨l, hl⟩ : Fin n0) p) :=
  (column_spread_apply _ hc2 hb p q).trans (rowOf_apply hl X hs hc1 p)

/-- Row `l` of a stacked array spread as a row down `a` rows: at `(p, q)` the array's `(l, q)`. -/
theorem rowAsRow_apply {n0 a b l : ℕ} (hl : l < n0) (X : (⟨2, ![n0, b]⟩ : Shape).Idx → α)
    (hs : (⟨2, ![n0, b]⟩ : Shape).Slices ![l, 0] ⟨2, ![1, b]⟩) (hc1 : (⟨2, ![1, b]⟩ : Shape).ShapeCasts ⟨1, ![b]⟩)
    (hc2 : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ (extractStridedSlice ⟨2, ![1, b]⟩ ![l, 0] X hs) hc1) hc2) hb
        (ix2 p q) = X (ix2 (⟨l, hl⟩ : Fin n0) q) :=
  (row_spread_apply _ hc2 hb p q).trans (rowOf_apply hl X hs hc1 q)

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` array cast to `[1, 1, a]` reads, at `(u, u', i)`, the operand at `i`. -/
theorem shapeCast_a_11a_apply {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp [hu, hu'])

end Cert.Lib

end
-- ==== Proof.Payloads.lean ====
/-
  The two kernel bodies' arithmetic read at an index, on the extended reals (where a change of float format is the
  identity). First kernel, on a tile of 1024 nodes: the accumulator of edge sums at (o, e) gains the sum over the
  tile's nodes r of (x·θ)(r, o) · H(r, e); the accumulator of edge degrees at e gains the sum over r of H(r, e); the
  stored quotient at (o, e) is the one divided by the other. Second kernel: the output block at (p, q) is the sum over
  the edges e of H(p, e) · xe(q, e), divided by the sum over e of H(p, e), plus the bias at q.
-/
import proofs.«104569_j11639361372554_2_alg».proof.Proof.Gen.KernelIdeal.Skeleton
import proofs.«104569_j11639361372554_2_alg».proof.Proof.LibMatDot
import proofs.«104569_j11639361372554_2_alg».proof.Proof.LibRowsDot
import proofs.«104569_j11639361372554_2_alg».proof.Proof.LibColsDot
import proofs.«104569_j11639361372554_2_alg».proof.Proof.LibColSum
import proofs.«104569_j11639361372554_2_alg».proof.Proof.LibRowSum
import proofs.«104569_j11639361372554_2_alg».proof.Proof.LibSpread
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- The cleared accumulators hold zero. -/
theorem pay1_apply (j : S64x2048.Idx) : k0_pay1 (F := Ideal) j = 0 := by
  unfold k0_pay1
  rw [shapeCast_self]
  exact Ideal.ofBits_zero_f32
theorem pay2_apply (j : S1x2048.Idx) : k0_pay2 (F := Ideal) j = 0 := by
  unfold k0_pay2
  rw [shapeCast_self]
  exact Ideal.ofBits_zero_f32

/-- The tile's projected features (x·θ)(r, o). -/
theorem proj_apply (x1 : Vec Ideal S1x1024x64 .f32) (x2 : Vec Ideal S64x64 .f32) (r : Fin 1024) (o : Fin 64) :
    matmul (F := Ideal) dot_S1024x64_S64x64_S1024x64_1_0_0_1_n_n none
        (truncf .bf16 (shapeCast S1024x64 x1 shapeCasts_S1x1024x64_S1024x64) bitsLt_bf16_f32) (truncf .bf16 x2 bitsLt_bf16_f32)
        (constant S1024x64 .f32 0x00000000#32) (ix2 r o)
      = ∑ i : Fin 64, x1 (ix3 (0 : Fin 1) r i) * x2 (ix2 i o) :=
  (Cert.Lib.matmul_plain_zero_apply dot_S1024x64_S64x64_S1024x64_1_0_0_1_n_n_wf none _ _ r o).trans
    (Finset.sum_congr rfl fun i _ => congrArg (· * x2 (ix2 i o)) (shapeCast_1ab_ab_apply x1 _ r i))

/-- The accumulator of edge sums after a tile. -/
theorem pay4_apply (x0 : Vec Ideal S1x1024x2048 .f32) (x1 : Vec Ideal S1x1024x64 .f32) (x2 : Vec Ideal S64x64 .f32)
    (a : Vec Ideal S64x2048 .f32) (o : Fin 64) (e : Fin 2048) :
    k0_pay4 (F := Ideal) x0 x1 x2 a (ix2 o e)
      = a (ix2 o e) + ∑ r : Fin 1024, (∑ i : Fin 64, x1 (ix3 (0 : Fin 1) r i) * x2 (ix2 i o)) * x0 (ix3 (0 : Fin 1) r e) := by
  unfold k0_pay4 k0_pay3
  refine (congrFun (shapeCast_self _ _) _).trans ?_
  refine congrArg (a (ix2 o e) + ·) ?_
  refine (Cert.Lib.matmul_cols_zero_apply dot_S1024x64_S1024x2048_S64x2048_0_0_1_1_n_n_wf none _ _ o e).trans
    (Finset.sum_congr rfl fun r _ => ?_)
  exact congrArg₂ (· * ·) (proj_apply x1 x2 r o) (shapeCast_1ab_ab_apply x0 _ r e)

/-- The accumulator of edge degrees after a tile. -/
theorem pay5_apply (x0 : Vec Ideal S1x1024x2048 .f32) (d : Vec Ideal S1x2048 .f32) (e : Fin 2048) :
    k0_pay5 (F := Ideal) x0 d (ix2 (0 : Fin 1) e) = d (ix2 (0 : Fin 1) e) + ∑ r : Fin 1024, x0 (ix3 (0 : Fin 1) r e) := by
  unfold k0_pay5 k0_pay3
  refine (congrFun (shapeCast_self _ _) _).trans ?_
  refine congrArg (d (ix2 (0 : Fin 1) e) + ·) ?_
  refine (shapeCast_a_1a_apply _ _ (0 : Fin 1) e).trans ?_
  refine (Cert.Lib.multiReduction_add_cols _ 0x00000000#32 reduces_S1024x2048_S2048 (.inl rfl) rfl e).trans
    (Finset.sum_congr rfl fun r _ => ?_)
  exact shapeCast_1ab_ab_apply x0 _ r e

/-- The stored quotient. -/
theorem pay6_apply (a : Vec Ideal S64x2048 .f32) (d : Vec Ideal S1x2048 .f32) (o : Fin 64) (e : Fin 2048) :
    k0_pay6 (F := Ideal) a d (ix3 (0 : Fin 1) o e) = Ideal.div (a (ix2 o e)) (d (ix2 (0 : Fin 1) e)) := by
  unfold k0_pay6
  refine (shapeCast_ab_1ab_apply _ _ (0 : Fin 1) o e).trans ?_
  exact congrArg (Ideal.div (a (ix2 o e))) (broadcastTo_1b_ab_apply d _ o e)

/-- The second kernel's output block. -/
theorem pay1k_apply (x0 : Vec Ideal S1x1024x2048 .f32) (x1 : Vec Ideal S1x64x2048 .f32) (x2 : Vec Ideal S1x64 .f32)
    (p : Fin 1024) (q : Fin 64) :
    k1_pay1 (F := Ideal) x0 x1 x2 (ix3 (0 : Fin 1) p q)
      = Ideal.div (∑ e : Fin 2048, x0 (ix3 (0 : Fin 1) p e) * x1 (ix3 (0 : Fin 1) q e)) (∑ e : Fin 2048, x0 (ix3 (0 : Fin 1) p e))
        + x2 (ix2 (0 : Fin 1) q) := by
  unfold k1_pay1
  refine (shapeCast_ab_1ab_apply _ _ (0 : Fin 1) p q).trans ?_
  refine congrArg₂ (· + ·) (congrArg₂ Ideal.div ?_ ?_) ?_
  · refine (Cert.Lib.matmul_rows_zero_apply dot_S1024x2048_S64x2048_S1024x64_1_1_0_0_n_n_wf none _ _ p q).trans
      (Finset.sum_congr rfl fun e _ => ?_)
    exact congrArg₂ (· * ·) (shapeCast_1ab_ab_apply x0 _ p e) (shapeCast_1ab_ab_apply x1 _ q e)
  · refine (Cert.Lib.column_spread_apply _ _ _ p q).trans ?_
    refine (Cert.Lib.multiReduction_add_rows _ 0x00000000#32 reduces_S1024x2048_S1024 (.inl rfl) rfl p).trans
      (Finset.sum_congr rfl fun e _ => ?_)
    exact shapeCast_1ab_ab_apply x0 _ p e
  · refine (broadcastTo_1b_ab_apply _ _ p q).trans ?_
    exact congrFun (shapeCast_self x2 _) _

end Cert.KernelIdeal.Pay

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.Spec.lean ====
/-
  The hypergraph convolution as one function of its four arrays, on the extended reals.

  With x the node features [4, 8192, 64], H the incidence array [4, 8192, 2048], θ the projection [64, 64] and a bias
  [64]: the projected features are x·θ; an edge's feature is the sum over the nodes n of (x·θ)(n, o) · H(n, e)
  divided by the edge's degree, the sum over n of H(n, e); a node's output is the sum over the edges e of
  H(n, e) times the edge's feature, divided by the node's degree, the sum over e of H(n, e), plus the bias.

  A sum over the 8192 nodes is also the sum over 8 tiles of 1024 consecutive nodes of the tiles' sums, and that sum
  taken tile after tile from zero: only the commutativity and associativity of the extended reals' addition are used,
  which hold without any finiteness.
-/
import Idealize.ShloMosaic.PureOps.Ideal
import Idealize.ShloMosaic.Lib.ValueIdx
import proofs.«104569_j11639361372554_2_alg».proof.Proof.LibBlockSum

noncomputable section

namespace Cert.HyperConv

open Idealize.ShloMosaic Idealize.ShloMosaic.ValueIdx
open scoped BigOperators

abbrev ShX : Shape := ⟨3, ![4, 8192, 64]⟩
abbrev ShH : Shape := ⟨3, ![4, 8192, 2048]⟩
abbrev ShT : Shape := ⟨2, ![64, 64]⟩
abbrev ShB : Shape := ⟨1, ![64]⟩
abbrev ShE : Shape := ⟨3, ![4, 64, 2048]⟩

variable (x : ShX.Idx → EReal) (H : ShH.Idx → EReal) (θ : ShT.Idx → EReal) (bias : ShB.Idx → EReal)

/-- The projected feature o of node n of batch b. -/
def proj (b : Fin 4) (n : Fin 8192) (o : Fin 64) : EReal := ∑ i : Fin 64, x (ix3 b n i) * θ (ix2 i o)
/-- Edge e's sum of its nodes' projected feature o. -/
def edgeSum (b : Fin 4) (o : Fin 64) (e : Fin 2048) : EReal := ∑ n : Fin 8192, proj x θ b n o * H (ix3 b n e)
/-- Edge e's degree. -/
def edgeDeg (b : Fin 4) (e : Fin 2048) : EReal := ∑ n : Fin 8192, H (ix3 b n e)
/-- The edge features, laid out [batch, feature, edge]. -/
def edgeFeat : ShE.Idx → EReal := fun j =>
  Ideal.div (edgeSum x H θ ⟨(j 0).val, (j 0).isLt⟩ ⟨(j 1).val, (j 1).isLt⟩ ⟨(j 2).val, (j 2).isLt⟩) (edgeDeg H ⟨(j 0).val, (j 0).isLt⟩ ⟨(j 2).val, (j 2).isLt⟩)
/-- The node outputs. -/
def nodeOutAt (b : Fin 4) (n : Fin 8192) (o : Fin 64) : EReal :=
  Ideal.div (∑ e : Fin 2048, H (ix3 b n e) * edgeFeat x H θ (ix3 b o e)) (∑ e : Fin 2048, H (ix3 b n e)) + bias (ix1 o)
def nodeOut : ShX.Idx → EReal := fun j => nodeOutAt x H θ bias ⟨(j 0).val, (j 0).isLt⟩ ⟨(j 1).val, (j 1).isLt⟩ ⟨(j 2).val, (j 2).isLt⟩

theorem edgeFeat_apply (b : Fin 4) (o : Fin 64) (e : Fin 2048) :
    edgeFeat x H θ (ix3 b o e) = Ideal.div (edgeSum x H θ b o e) (edgeDeg H b e) := rfl
theorem nodeOut_apply (b : Fin 4) (n : Fin 8192) (o : Fin 64) :
    nodeOut x H θ bias (ix3 b n o) = nodeOutAt x H θ bias b n o := rfl

/-! ## The sums over the nodes, tile by tile -/

/-- Node r of tile k. -/
def tileIdx (k : Fin 8) (r : Fin 1024) : Fin 8192 := ⟨r.val + 1024 * k.val, by have := r.isLt; have := k.isLt; omega⟩
def tileSum (b : Fin 4) (k : Fin 8) (o : Fin 64) (e : Fin 2048) : EReal :=
  ∑ r : Fin 1024, proj x θ b (tileIdx k r) o * H (ix3 b (tileIdx k r) e)
def tileDeg (b : Fin 4) (k : Fin 8) (e : Fin 2048) : EReal := ∑ r : Fin 1024, H (ix3 b (tileIdx k r) e)

theorem edgeSum_tiles (b : Fin 4) (o : Fin 64) (e : Fin 2048) : edgeSum x H θ b o e = ∑ k : Fin 8, tileSum x H θ b k o e :=
  Cert.Lib.sum_blocks 8 1024 (fun n : Fin (8 * 1024) => proj x θ b n o * H (ix3 b n e))
theorem edgeDeg_tiles (b : Fin 4) (e : Fin 2048) : edgeDeg H b e = ∑ k : Fin 8, tileDeg H b k e :=
  Cert.Lib.sum_blocks 8 1024 (fun n : Fin (8 * 1024) => H (ix3 b n e))

/-- A family over the eight tiles, extended by zero to every natural number. -/
def ext8 (f : Fin 8 → EReal) (k : ℕ) : EReal := if h : k < 8 then f ⟨k, h⟩ else 0
/-- The family's terms added one after the other: what an accumulator cleared before tile 0 holds after tile k. -/
def accUpTo (f : Fin 8 → EReal) (k : ℕ) : EReal := ∑ j ∈ Finset.range (k + 1), ext8 f j

theorem ext8_of_lt (f : Fin 8 → EReal) (k : ℕ) (h : k < 8) : ext8 f k = f ⟨k, h⟩ := dif_pos h
theorem accUpTo_zero (f : Fin 8 → EReal) : accUpTo f 0 = 0 + f 0 := by
  unfold accUpTo
  rw [Finset.sum_range_one, zero_add]
  exact ext8_of_lt f 0 (by decide)
theorem accUpTo_succ (f : Fin 8 → EReal) (k : ℕ) (h : k + 1 < 8) : accUpTo f (k + 1) = accUpTo f k + f ⟨k + 1, h⟩ := by
  unfold accUpTo
  rw [Finset.sum_range_succ, ext8_of_lt f (k + 1) h]
theorem accUpTo_seven (f : Fin 8 → EReal) : accUpTo f 7 = ∑ k : Fin 8, f k := by
  unfold accUpTo
  rw [← Fin.sum_univ_eq_sum_range (ext8 f) 8]
  exact Finset.sum_congr rfl fun k _ => ext8_of_lt f k.val k.isLt

/-- The edge sums and degrees as an accumulator holds them after tile k of batch b. -/
def accSum (b : Fin 4) (k : ℕ) (o : Fin 64) (e : Fin 2048) : EReal := accUpTo (fun k => tileSum x H θ b k o e) k
def accDeg (b : Fin 4) (k : ℕ) (e : Fin 2048) : EReal := accUpTo (fun k => tileDeg H b k e) k

theorem accSum_seven (b : Fin 4) (o : Fin 64) (e : Fin 2048) : accSum x H θ b 7 o e = edgeSum x H θ b o e :=
  (accUpTo_seven _).trans (edgeSum_tiles x H θ b o e).symm
theorem accDeg_seven (b : Fin 4) (e : Fin 2048) : accDeg H b 7 e = edgeDeg H b e :=
  (accUpTo_seven _).trans (edgeDeg_tiles H b e).symm

end Cert.HyperConv

end
-- ==== Proof.Value0.lean ====
/-
  What the first kernel leaves in the edge-feature array. Grid position t is tile t mod 8 of batch t div 8: the three
  input blocks there are that tile's 1024 nodes of H and of x, and θ whole. By induction on the position the two
  accumulators hold, after it, the batch's edge sums and edge degrees over the tiles up to this one, added in order
  from zero. At a batch's last tile the block written back is the quotient of the complete sums: the batch's slab
  of the edge features. The four write-backs cover the array.
-/
import proofs.«104569_j11639361372554_2_alg».proof.Proof.Pieces0I
import proofs.«104569_j11639361372554_2_alg».proof.Proof.Payloads
import proofs.«104569_j11639361372554_2_alg».proof.Proof.Spec
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm Cert.HyperConv
open scoped BigOperators

variable (V : (c : Dev nD) → (b : Ref sig .tc) → Buf (Elt Ideal) ((c : Thread nD τ).loc b))

/-- The three argument arrays the first kernel reads, as the region finds them. -/
abbrev aX (c : Dev nD) : ShX.Idx → EReal := (V c main_arg0 : S4x8192x64.Idx → Elt Ideal .f32)
abbrev aH (c : Dev nD) : ShH.Idx → EReal := (V c main_arg1 : S4x8192x2048.Idx → Elt Ideal .f32)
abbrev aT (c : Dev nD) : ShT.Idx → EReal := (V c main_arg2 : S64x64.Idx → Elt Ideal .f32)

theorem lt32 (t : Fin cfg0.N) : t.val < 32 := lt_of_lt_of_eq t.isLt (show cfg0.N = 32 from N_0)
/-- Position t's batch and tile. -/
def batchOf (t : Fin cfg0.N) : Fin 4 := ⟨t.val / 8, by have := lt32 t; omega⟩
def tileOf (t : Fin cfg0.N) : Fin 8 := ⟨t.val % 8, by omega⟩

/-! ## The windows' block indices, decided over the grid -/

theorem idx0_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, win0_0.index t (0 : Fin 3) = t.val / 8 ∧ win0_0.index t (1 : Fin 3) = t.val % 8 ∧ win0_0.index t (2 : Fin 3) = 0)
theorem idx0_1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, win0_1.index t (0 : Fin 3) = t.val / 8 ∧ win0_1.index t (1 : Fin 3) = t.val % 8 ∧ win0_1.index t (2 : Fin 3) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-! ## The input blocks at a position -/

/-- Position t's blocks of H, of x and of θ. -/
abbrev tH (c : Dev nD) (t : Fin cfg0.N) : Vec Ideal S1x1024x2048 .f32 := iblk0 V c 0 t
abbrev tX (c : Dev nD) (t : Fin cfg0.N) : Vec Ideal S1x1024x64 .f32 := iblk0 V c 1 t
abbrev tT (c : Dev nD) (t : Fin cfg0.N) : Vec Ideal S64x64 .f32 := iblk0 V c 2 t

theorem iblk0_0_at (c : Dev nD) (t : Fin cfg0.N) (r : Fin 1024) (e : Fin 2048) :
    tH V c t (ix3 (0 : Fin 1) r e) = aH V c (ix3 (batchOf t) (tileIdx (tileOf t) r) e) := by
  obtain ⟨e0, e1, e2⟩ := idx0_0 t
  unfold tH iblk0
  rw [View.read_apply]
  show V c main_arg1 _ = V c main_arg1 _
  congr 1
  funext a
  apply Fin.ext
  match a with
  | ⟨0, _⟩ => show win0_0.index t 0 * 1 + 1 * (0 : ℕ) = t.val / 8; rw [e0]; omega
  | ⟨1, _⟩ => show win0_0.index t 1 * 1024 + 1 * r.val = r.val + 1024 * (t.val % 8); rw [e1]; omega
  | ⟨2, _⟩ => show win0_0.index t 2 * 2048 + 1 * e.val = e.val; rw [e2]; omega

theorem iblk0_1_at (c : Dev nD) (t : Fin cfg0.N) (r : Fin 1024) (i : Fin 64) :
    tX V c t (ix3 (0 : Fin 1) r i) = aX V c (ix3 (batchOf t) (tileIdx (tileOf t) r) i) := by
  obtain ⟨e0, e1, e2⟩ := idx0_1 t
  unfold tX iblk0
  rw [View.read_apply]
  show V c main_arg0 _ = V c main_arg0 _
  congr 1
  funext a
  apply Fin.ext
  match a with
  | ⟨0, _⟩ => show win0_1.index t 0 * 1 + 1 * (0 : ℕ) = t.val / 8; rw [e0]; omega
  | ⟨1, _⟩ => show win0_1.index t 1 * 1024 + 1 * r.val = r.val + 1024 * (t.val % 8); rw [e1]; omega
  | ⟨2, _⟩ => show win0_1.index t 2 * 64 + 1 * i.val = i.val; rw [e2]; omega

theorem iblk0_2_at (c : Dev nD) (t : Fin cfg0.N) (i : Fin 64) (o : Fin 64) :
    tT V c t (ix2 i o) = aT V c (ix2 i o) := by
  obtain ⟨e0, e1⟩ := idx0_2 t
  unfold tT iblk0
  rw [View.read_apply]
  show V c main_arg2 _ = V c main_arg2 _
  congr 1
  funext a
  apply Fin.ext
  match a with
  | ⟨0, _⟩ => show win0_2.index t 0 * 64 + 1 * i.val = i.val; rw [e0]; omega
  | ⟨1, _⟩ => show win0_2.index t 1 * 64 + 1 * o.val = o.val; rw [e1]; omega

/-- A tile's contribution to an edge sum, over the position's blocks. -/
theorem tile_term (c : Dev nD) (t : Fin cfg0.N) (o : Fin 64) (e : Fin 2048) :
    (∑ r : Fin 1024, (∑ i : Fin 64, tX V c t (ix3 (0 : Fin 1) r i) * tT V c t (ix2 i o))
        * tH V c t (ix3 (0 : Fin 1) r e))
      = tileSum (aX V c) (aH V c) (aT V c) (batchOf t) (tileOf t) o e := by
  unfold tileSum proj
  refine Finset.sum_congr rfl fun r _ => ?_
  rw [iblk0_0_at]
  refine congrArg (· * _) (Finset.sum_congr rfl fun i _ => ?_)
  rw [iblk0_1_at, iblk0_2_at]

theorem tile_deg (c : Dev nD) (t : Fin cfg0.N) (e : Fin 2048) :
    (∑ r : Fin 1024, tH V c t (ix3 (0 : Fin 1) r e))
      = tileDeg (aH V c) (batchOf t) (tileOf t) e := by
  unfold tileDeg
  exact Finset.sum_congr rfl fun r _ => iblk0_0_at V c t r e

/-! ## One position's step, read at an index -/

theorem stepA_sum (c : Dev nD) (t : Fin cfg0.N) (h0 : t.val % 8 = 0) (h1 : ¬t.val % 8 = 7) (o : Fin 64) (e : Fin 2048) :
    (stepA V c t h0 h1).1 (ix2 o e) = 0 + tileSum (aX V c) (aH V c) (aT V c) (batchOf t) (tileOf t) o e := by
  unfold stepA
  dsimp only
  rw [soutA0_eq]
  refine (Pay.pay4_apply (tH V c t) (tX V c t) (tT V c t) _ o e).trans ?_
  rw [Pay.pay1_apply, tile_term]
theorem stepA_deg (c : Dev nD) (t : Fin cfg0.N) (h0 : t.val % 8 = 0) (h1 : ¬t.val % 8 = 7) (e : Fin 2048) :
    (stepA V c t h0 h1).2 (ix2 (0 : Fin 1) e) = 0 + tileDeg (aH V c) (batchOf t) (tileOf t) e := by
  unfold stepA
  dsimp only
  rw [soutA1_eq]
  refine (Pay.pay5_apply (tH V c t) _ e).trans ?_
  rw [Pay.pay2_apply, tile_deg]
theorem stepB_sum (c : Dev nD) (t : Fin cfg0.N) (h0 : ¬t.val % 8 = 0) (h1 : ¬t.val % 8 = 7) (xs0 : Vec Ideal S64x2048 .f32) (xs1 : Vec Ideal S1x2048 .f32) (o : Fin 64) (e : Fin 2048) :
    (stepB V c t h0 h1 xs0 xs1).1 (ix2 o e) = xs0 (ix2 o e) + tileSum (aX V c) (aH V c) (aT V c) (batchOf t) (tileOf t) o e := by
  unfold stepB
  dsimp only
  rw [soutB0_eq]
  refine (Pay.pay4_apply (tH V c t) (tX V c t) (tT V c t) xs0 o e).trans ?_
  rw [tile_term]
theorem stepB_deg (c : Dev nD) (t : Fin cfg0.N) (h0 : ¬t.val % 8 = 0) (h1 : ¬t.val % 8 = 7) (xs0 : Vec Ideal S64x2048 .f32) (xs1 : Vec Ideal S1x2048 .f32) (e : Fin 2048) :
    (stepB V c t h0 h1 xs0 xs1).2 (ix2 (0 : Fin 1) e) = xs1 (ix2 (0 : Fin 1) e) + tileDeg (aH V c) (batchOf t) (tileOf t) e := by
  unfold stepB
  dsimp only
  rw [soutB1_eq]
  refine (Pay.pay5_apply (tH V c t) xs1 e).trans ?_
  rw [tile_deg]
theorem stepC_sum (c : Dev nD) (t : Fin cfg0.N) (h0 : ¬t.val % 8 = 0) (h1 : t.val % 8 = 7) (xs0 : Vec Ideal S64x2048 .f32) (xs1 : Vec Ideal S1x2048 .f32) (o : Fin 64) (e : Fin 2048) :
    (stepC V c t h0 h1 xs0 xs1).2.1 (ix2 o e) = xs0 (ix2 o e) + tileSum (aX V c) (aH V c) (aT V c) (batchOf t) (tileOf t) o e := by
  unfold stepC
  dsimp only
  rw [soutC0_eq]
  refine (Pay.pay4_apply (tH V c t) (tX V c t) (tT V c t) xs0 o e).trans ?_
  rw [tile_term]
theorem stepC_deg (c : Dev nD) (t : Fin cfg0.N) (h0 : ¬t.val % 8 = 0) (h1 : t.val % 8 = 7) (xs0 : Vec Ideal S64x2048 .f32) (xs1 : Vec Ideal S1x2048 .f32) (e : Fin 2048) :
    (stepC V c t h0 h1 xs0 xs1).2.2 (ix2 (0 : Fin 1) e) = xs1 (ix2 (0 : Fin 1) e) + tileDeg (aH V c) (batchOf t) (tileOf t) e := by
  unfold stepC
  dsimp only
  rw [soutC1_eq]
  refine (Pay.pay5_apply (tH V c t) xs1 e).trans ?_
  rw [tile_deg]
/-- The block stored at a batch's last tile is the quotient of the two accumulators' new contents. -/
theorem stepC_out (c : Dev nD) (t : Fin cfg0.N) (h0 : ¬t.val % 8 = 0) (h1 : t.val % 8 = 7) (xs0 : Vec Ideal S64x2048 .f32) (xs1 : Vec Ideal S1x2048 .f32) (o : Fin 64) (e : Fin 2048) :
    (stepC V c t h0 h1 xs0 xs1).1 (ix3 (0 : Fin 1) o e)
      = Ideal.div ((stepC V c t h0 h1 xs0 xs1).2.1 (ix2 o e)) ((stepC V c t h0 h1 xs0 xs1).2.2 (ix2 (0 : Fin 1) e)) := by
  unfold stepC
  dsimp only
  rw [outC3_eq, soutC0_eq, soutC1_eq]
  exact Pay.pay6_apply _ _ o e

/-! ## The accumulators after each position -/

theorem acc_inv (c : Dev nD) : ∀ (n : ℕ) (hn : n < cfg0.N) (o : Fin 64) (e : Fin 2048),
    (outsAt0 V c n hn).2.1 (ix2 o e) = accSum (aX V c) (aH V c) (aT V c) (batchOf ⟨n, hn⟩) (n % 8) o e
    ∧ (outsAt0 V c n hn).2.2 (ix2 (0 : Fin 1) e) = accDeg (aH V c) (batchOf ⟨n, hn⟩) (n % 8) e := by
  intro n
  induction n with
  | zero =>
    intro hn o e
    rw [outsAt0_A V c ⟨0, hn⟩ (Nat.zero_mod _) (show ¬(0 % 8 = 7) from by decide)]
    dsimp only
    rw [stepA_sum, stepA_deg]
    unfold accSum accDeg
    rw [show (0 % 8) = 0 from rfl, accUpTo_zero, accUpTo_zero]
    exact ⟨rfl, rfl⟩
  | succ n ih =>
    intro hn o e
    have hN : n + 1 < 32 := lt32 ⟨n + 1, hn⟩
    obtain ⟨ihs, ihd⟩ := ih (Nat.lt_of_succ_lt hn) o e
    by_cases h0 : (n + 1) % 8 = 0
    · have h1 : ¬(n + 1) % 8 = 7 := by omega
      rw [outsAt0_A V c ⟨n + 1, hn⟩ h0 h1]
      dsimp only
      rw [stepA_sum, stepA_deg]
      unfold accSum accDeg
      rw [h0, accUpTo_zero, accUpTo_zero]
      refine ⟨congrArg (0 + ·) ?_, congrArg (0 + ·) ?_⟩
      · exact congrArg (fun k => tileSum (aX V c) (aH V c) (aT V c) (batchOf ⟨n + 1, hn⟩) k o e) (Fin.ext h0)
      · exact congrArg (fun k => tileDeg (aH V c) (batchOf ⟨n + 1, hn⟩) k e) (Fin.ext h0)
    · have hb : batchOf ⟨n, Nat.lt_of_succ_lt hn⟩ = batchOf ⟨n + 1, hn⟩ := Fin.ext (by show n / 8 = (n + 1) / 8; omega)
      have hk : (n + 1) % 8 = n % 8 + 1 := by omega
      have hk8 : n % 8 + 1 < 8 := by omega
      have hsum : accSum (aX V c) (aH V c) (aT V c) (batchOf ⟨n + 1, hn⟩) ((n + 1) % 8) o e
          = accSum (aX V c) (aH V c) (aT V c) (batchOf ⟨n, Nat.lt_of_succ_lt hn⟩) (n % 8) o e
            + tileSum (aX V c) (aH V c) (aT V c) (batchOf ⟨n + 1, hn⟩) (tileOf ⟨n + 1, hn⟩) o e := by
        unfold accSum
        rw [hk, accUpTo_succ _ _ hk8, hb]
        exact congrArg (fun k => _ + tileSum (aX V c) (aH V c) (aT V c) (batchOf ⟨n + 1, hn⟩) k o e) (Fin.ext hk.symm)
      have hdeg : accDeg (aH V c) (batchOf ⟨n + 1, hn⟩) ((n + 1) % 8) e
          = accDeg (aH V c) (batchOf ⟨n, Nat.lt_of_succ_lt hn⟩) (n % 8) e
            + tileDeg (aH V c) (batchOf ⟨n + 1, hn⟩) (tileOf ⟨n + 1, hn⟩) e := by
        unfold accDeg
        rw [hk, accUpTo_succ _ _ hk8, hb]
        exact congrArg (fun k => _ + tileDeg (aH V c) (batchOf ⟨n + 1, hn⟩) k e) (Fin.ext hk.symm)
      rw [hsum, hdeg, ← ihs, ← ihd]
      by_cases h1 : (n + 1) % 8 = 7
      · rw [outsAt0_C V c ⟨n + 1, hn⟩ h0 h1]
        exact ⟨stepC_sum V c ⟨n + 1, hn⟩ h0 h1 _ _ o e, stepC_deg V c ⟨n + 1, hn⟩ h0 h1 _ _ e⟩
      · rw [outsAt0_B V c ⟨n + 1, hn⟩ h0 h1]
        exact ⟨stepB_sum V c ⟨n + 1, hn⟩ h0 h1 _ _ o e, stepB_deg V c ⟨n + 1, hn⟩ h0 h1 _ _ e⟩

/-! ## The write-backs and the array -/

/-- What a batch's last tile writes back is the batch's slab of the edge features. -/
theorem flushed0_3 (c : Dev nD) (t : Fin cfg0.N) (hf : (cfg0.win 3).flush t = true) :
    (dat0 V c).flushed 3 t = ((cfg0.win 3).blk t).view.read (Elt Ideal) (edgeFeat (aX V c) (aH V c) (aT V c)) := by
  have h7 : t.val % 8 = 7 := (flush0_3 t).mp hf
  have h0 : ¬t.val % 8 = 0 := by omega
  obtain ⟨e0, e1, e2⟩ := idx0_3 t
  show (cfg0.win 3).cut (grid0.coords t) ((dat0 V c).after 3 t) = _
  rw [after0_3]
  funext j
  obtain ⟨u, o, e, rfl⟩ : ∃ (u : Fin 1) (o : Fin 64) (e : Fin 2048), j = ix3 u o e := ⟨j 0, j 1, j 2, eq_ix3 j⟩
  obtain rfl : u = 0 := Subsingleton.elim _ _
  rw [View.read_apply]
  show (outsAt0 V c t.val t.isLt).1 (ix3 (0 : Fin 1) o e) = edgeFeat (aX V c) (aH V c) (aT V c) _
  have hemb : ((cfg0.win 3).blk t).view.emb (ix3 (0 : Fin 1) o e) = ix3 (batchOf t) o e := by
    funext a
    apply Fin.ext
    match a with
    | ⟨0, _⟩ => show win0_3.index t 0 * 1 + 1 * (0 : ℕ) = t.val / 8; rw [e0]; omega
    | ⟨1, _⟩ => show win0_3.index t 1 * 64 + 1 * o.val = o.val; rw [e1]; omega
    | ⟨2, _⟩ => show win0_3.index t 2 * 2048 + 1 * e.val = e.val; rw [e2]; omega
  rw [hemb, edgeFeat_apply, ← accSum_seven, ← accDeg_seven]
  obtain ⟨hs, hd⟩ := acc_inv V c t.val t.isLt o e
  rw [h7] at hs hd
  rw [← hs, ← hd, outsAt0_C V c t h0 h7]
  exact stepC_out V c t h0 h7 _ _ o e

theorem mem_blk0_3 (t : Fin cfg0.N) (i : S4x64x2048.Idx) :
    i ∈ ((cfg0.win 3).blk t).view.set ↔ ∀ a : Fin 3, win0_3.index t a * S1x64x2048.size a ≤ (i a).val ∧ (i a).val < win0_3.index t a * S1x64x2048.size a + S1x64x2048.size a := by
  show i ∈ ((View.whole main_v0).slice (win0_3.rect t)).set ↔ _
  rw [View.set_slice_whole, Rect.mem_set_unit]
  exact Iff.rfl

theorem cover0_3 (i : S4x64x2048.Idx) : ∃ t : Fin cfg0.N, (cfg0.win 3).flush t = true ∧ i ∈ ((cfg0.win 3).blk t).view.set := by
  have hi0 : (i 0).val < 4 := (i 0).isLt
  have hi1 : (i 1).val < 64 := (i 1).isLt
  have hi2 : (i 2).val < 2048 := (i 2).isLt
  have hlt : 8 * (i 0).val + 7 < cfg0.N := by rw [show cfg0.N = 32 from N_0]; omega
  obtain ⟨e0, e1, e2⟩ := idx0_3 ⟨8 * (i 0).val + 7, hlt⟩
  have e0' : win0_3.index ⟨8 * (i 0).val + 7, hlt⟩ (0 : Fin 3) = (8 * (i 0).val + 7) / 8 := e0
  refine ⟨⟨8 * (i 0).val + 7, hlt⟩, (flush0_3 _).mpr (by show (8 * (i 0).val + 7) % 8 = 7; omega), ?_⟩
  rw [mem_blk0_3]
  intro a
  match a with
  | ⟨0, _⟩ => show win0_3.index ⟨8 * (i 0).val + 7, hlt⟩ (0 : Fin 3) * 1 ≤ (i 0).val ∧ (i 0).val < win0_3.index ⟨8 * (i 0).val + 7, hlt⟩ (0 : Fin 3) * 1 + 1; rw [e0']; omega
  | ⟨1, _⟩ => show win0_3.index ⟨8 * (i 0).val + 7, hlt⟩ (1 : Fin 3) * 64 ≤ (i 1).val ∧ (i 1).val < win0_3.index ⟨8 * (i 0).val + 7, hlt⟩ (1 : Fin 3) * 64 + 64; rw [e1]; omega
  | ⟨2, _⟩ => show win0_3.index ⟨8 * (i 0).val + 7, hlt⟩ (2 : Fin 3) * 2048 ≤ (i 2).val ∧ (i 2).val < win0_3.index ⟨8 * (i 0).val + 7, hlt⟩ (2 : Fin 3) * 2048 + 2048; rw [e2]; omega

/-- After the first kernel its output array holds the edge features. -/
theorem final0_3 (c : Dev nD) : (dat0 V c).arrAt 3 cfg0.N = edgeFeat (aX V c) (aH V c) (aT V c) :=
  (dat0 V c).arrAt_eq_of_cover 3 (edgeFeat (aX V c) (aH V c) (aT V c)) (fun t hf => flushed0_3 V c t hf) (cover0_3)

end Cert.KernelIdeal.Val

end
-- ==== Proof.Value1.lean ====
/-
  What the second kernel leaves in the result array. Grid position t is the tile t mod 8 of batch t div 8: its blocks
  are that tile's 1024 nodes of H, the batch's slab of the edge features and the bias row. The block it writes back
  is the node outputs of the tile; every position writes back, and the blocks cover the array.
-/
import proofs.«104569_j11639361372554_2_alg».proof.Proof.Region1I
import proofs.«104569_j11639361372554_2_alg».proof.Proof.Payloads
import proofs.«104569_j11639361372554_2_alg».proof.Proof.Spec
import Idealize.ShloMosaic.Lib.Pipeline.Value

set_option maxRecDepth 16384

noncomputable section

namespace Cert.KernelIdeal.Val1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm Cert.HyperConv
open scoped BigOperators

/-- The node outputs from the incidence array, an array of edge features [batch, feature, edge] and a bias row. -/
def nodeOf (aH : ShH.Idx → EReal) (aE : ShE.Idx → EReal) (aB : (⟨2, ![1, 64]⟩ : Shape).Idx → EReal) : ShX.Idx → EReal := fun j =>
  Ideal.div (∑ e : Fin 2048, aH (ix3 (⟨(j 0).val, (j 0).isLt⟩ : Fin 4) (⟨(j 1).val, (j 1).isLt⟩ : Fin 8192) e) * aE (ix3 (⟨(j 0).val, (j 0).isLt⟩ : Fin 4) (⟨(j 2).val, (j 2).isLt⟩ : Fin 64) e))
      (∑ e : Fin 2048, aH (ix3 (⟨(j 0).val, (j 0).isLt⟩ : Fin 4) (⟨(j 1).val, (j 1).isLt⟩ : Fin 8192) e))
    + aB (ix2 (0 : Fin 1) (⟨(j 2).val, (j 2).isLt⟩ : Fin 64))
theorem nodeOf_apply (aH : ShH.Idx → EReal) (aE : ShE.Idx → EReal) (aB : (⟨2, ![1, 64]⟩ : Shape).Idx → EReal) (b : Fin 4) (n : Fin 8192) (o : Fin 64) :
    nodeOf aH aE aB (ix3 b n o) = Ideal.div (∑ e : Fin 2048, aH (ix3 b n e) * aE (ix3 b o e)) (∑ e : Fin 2048, aH (ix3 b n e)) + aB (ix2 (0 : Fin 1) o) := rfl

variable (V : (c : Dev nD) → (b : Ref sig .tc) → Buf (Elt Ideal) ((c : Thread nD τ).loc b))

abbrev bH (c : Dev nD) : ShH.Idx → EReal := (V c main_arg1 : S4x8192x2048.Idx → Elt Ideal .f32)
abbrev bE (c : Dev nD) : ShE.Idx → EReal := (V c main_v0 : S4x64x2048.Idx → Elt Ideal .f32)
abbrev bB (c : Dev nD) : (⟨2, ![1, 64]⟩ : Shape).Idx → EReal := (V c main_v1 : S1x64.Idx → Elt Ideal .f32)

theorem lt32 (t : Fin cfg1.N) : t.val < 32 := lt_of_lt_of_eq t.isLt (show cfg1.N = 32 from N_1)
def batchOf (t : Fin cfg1.N) : Fin 4 := ⟨t.val / 8, by have := lt32 t; omega⟩
def tileOf (t : Fin cfg1.N) : Fin 8 := ⟨t.val % 8, by omega⟩

theorem hz2 : (![0, 0] : Fin 2 → Nat) = fun _ => 0 := funext fun a => by fin_cases a <;> rfl
theorem hz3 : (![0, 0, 0] : Fin 3 → Nat) = fun _ => 0 := funext fun a => by fin_cases a <;> rfl

theorem idx1_0 : ∀ t : Fin cfg1.N, win1_0.index t (0 : Fin 3) = t.val / 8 ∧ win1_0.index t (1 : Fin 3) = t.val % 8 ∧ win1_0.index t (2 : Fin 3) = 0 :=
  (by decide +kernel : ∀ t : Fin grid1.N, win1_0.index t (0 : Fin 3) = t.val / 8 ∧ win1_0.index t (1 : Fin 3) = t.val % 8 ∧ win1_0.index t (2 : Fin 3) = 0)
theorem idx1_1 : ∀ t : Fin cfg1.N, win1_1.index t (0 : Fin 3) = t.val / 8 ∧ win1_1.index t (1 : Fin 3) = 0 ∧ win1_1.index t (2 : Fin 3) = 0 :=
  (by decide +kernel : ∀ t : Fin grid1.N, win1_1.index t (0 : Fin 3) = t.val / 8 ∧ win1_1.index t (1 : Fin 3) = 0 ∧ win1_1.index t (2 : Fin 3) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 3) = t.val / 8 ∧ win1_3.index t (1 : Fin 3) = t.val % 8 ∧ win1_3.index t (2 : Fin 3) = 0 :=
  (by decide +kernel : ∀ t : Fin grid1.N, win1_3.index t (0 : Fin 3) = t.val / 8 ∧ win1_3.index t (1 : Fin 3) = t.val % 8 ∧ win1_3.index t (2 : Fin 3) = 0)

theorem iblk1_0_at (c : Dev nD) (t : Fin cfg1.N) (p : Fin 1024) (e : Fin 2048) :
    (iblk1 V c 0 t : Vec Ideal S1x1024x2048 .f32) (ix3 (0 : Fin 1) p e) = bH V c (ix3 (batchOf t) (tileIdx (tileOf t) p) e) := by
  obtain ⟨e0, e1, e2⟩ := idx1_0 t
  unfold iblk1
  rw [View.read_apply]
  show V c main_arg1 _ = V c main_arg1 _
  congr 1
  funext a
  apply Fin.ext
  match a with
  | ⟨0, _⟩ => show win1_0.index t 0 * 1 + 1 * (0 : ℕ) = t.val / 8; rw [e0]; omega
  | ⟨1, _⟩ => show win1_0.index t 1 * 1024 + 1 * p.val = p.val + 1024 * (t.val % 8); rw [e1]; omega
  | ⟨2, _⟩ => show win1_0.index t 2 * 2048 + 1 * e.val = e.val; rw [e2]; omega

theorem iblk1_1_at (c : Dev nD) (t : Fin cfg1.N) (q : Fin 64) (e : Fin 2048) :
    (iblk1 V c 1 t : Vec Ideal S1x64x2048 .f32) (ix3 (0 : Fin 1) q e) = bE V c (ix3 (batchOf t) q e) := by
  obtain ⟨e0, e1, e2⟩ := idx1_1 t
  unfold iblk1
  rw [View.read_apply]
  show V c main_v0 _ = V c main_v0 _
  congr 1
  funext a
  apply Fin.ext
  match a with
  | ⟨0, _⟩ => show win1_1.index t 0 * 1 + 1 * (0 : ℕ) = t.val / 8; rw [e0]; omega
  | ⟨1, _⟩ => show win1_1.index t 1 * 64 + 1 * q.val = q.val; rw [e1]; omega
  | ⟨2, _⟩ => show win1_1.index t 2 * 2048 + 1 * e.val = e.val; rw [e2]; omega

theorem iblk1_2_at (c : Dev nD) (t : Fin cfg1.N) (q : Fin 64) :
    (iblk1 V c 2 t : Vec Ideal S1x64 .f32) (ix2 (0 : Fin 1) q) = bB V c (ix2 (0 : Fin 1) q) := by
  obtain ⟨e0, e1⟩ := idx1_2 t
  unfold iblk1
  rw [View.read_apply]
  show V c main_v1 _ = V c main_v1 _
  congr 1
  funext a
  apply Fin.ext
  match a with
  | ⟨0, _⟩ => show win1_2.index t 0 * 1 + 1 * (0 : ℕ) = 0; rw [e0]
  | ⟨1, _⟩ => show win1_2.index t 1 * 64 + 1 * q.val = q.val; rw [e1]; omega

/-- What position t writes back is its block of the node outputs. -/
theorem flushed1_3 (c : Dev nD) (t : Fin cfg1.N) :
    (dat1 V c).flushed 3 t = ((cfg1.win 3).blk t).view.read (Elt Ideal) (nodeOf (bH V c) (bE V c) (bB V c)) := by
  obtain ⟨e0, e1, e2⟩ := idx1_3 t
  show (cfg1.win 3).cut (grid1.coords t) ((dat1 V c).after 3 t) = _
  rw [after1_3]
  unfold out1_3
  rw [View.canon_unit_zero hz3]
  simp only [View.ld_unit_zero (S := S1x1024x2048) hz3, View.ld_unit_zero (S := S1x64x2048) hz3, View.ld_unit_zero (S := S1x64) hz2]
  funext j
  obtain ⟨u, p, q, rfl⟩ : ∃ (u : Fin 1) (p : Fin 1024) (q : Fin 64), j = ix3 u p q := ⟨j 0, j 1, j 2, eq_ix3 j⟩
  obtain rfl : u = 0 := Subsingleton.elim _ _
  rw [View.read_apply]
  have hemb : ((cfg1.win 3).blk t).view.emb (ix3 (0 : Fin 1) p q) = ix3 (batchOf t) (tileIdx (tileOf t) p) q := by
    funext a
    apply Fin.ext
    match a with
    | ⟨0, _⟩ => show win1_3.index t 0 * 1 + 1 * (0 : ℕ) = t.val / 8; rw [e0]; omega
    | ⟨1, _⟩ => show win1_3.index t 1 * 1024 + 1 * p.val = p.val + 1024 * (t.val % 8); rw [e1]; omega
    | ⟨2, _⟩ => show win1_3.index t 2 * 64 + 1 * q.val = q.val; rw [e2]; omega
  rw [hemb, nodeOf_apply]
  refine (Pay.pay1k_apply (iblk1 V c 0 t) (iblk1 V c 1 t) (iblk1 V c 2 t) p q).trans ?_
  rw [iblk1_2_at]
  refine congrArg (· + _) (congrArg₂ Ideal.div (Finset.sum_congr rfl fun e _ => ?_) (Finset.sum_congr rfl fun e _ => iblk1_0_at V c t p e))
  rw [iblk1_0_at, iblk1_1_at]

theorem mem_blk1_3 (t : Fin cfg1.N) (i : S4x8192x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v2).slice (win1_3.rect t)).set ↔ _
  rw [View.set_slice_whole, Rect.mem_set_unit]
  exact Iff.rfl

theorem cover1_3 (i : S4x8192x64.Idx) : ∃ t : Fin cfg1.N, (cfg1.win 3).flush t = true ∧ i ∈ ((cfg1.win 3).blk t).view.set := by
  have hi0 : (i 0).val < 4 := (i 0).isLt
  have hi1 : (i 1).val < 8192 := (i 1).isLt
  have hi2 : (i 2).val < 64 := (i 2).isLt
  have hlt : 8 * (i 0).val + (i 1).val / 1024 < cfg1.N := by rw [show cfg1.N = 32 from N_1]; omega
  obtain ⟨e0, e1, e2⟩ := idx1_3 ⟨8 * (i 0).val + (i 1).val / 1024, hlt⟩
  have e0' : win1_3.index ⟨8 * (i 0).val + (i 1).val / 1024, hlt⟩ (0 : Fin 3) = (8 * (i 0).val + (i 1).val / 1024) / 8 := e0
  have e1' : win1_3.index ⟨8 * (i 0).val + (i 1).val / 1024, hlt⟩ (1 : Fin 3) = (8 * (i 0).val + (i 1).val / 1024) % 8 := e1
  refine ⟨⟨8 * (i 0).val + (i 1).val / 1024, hlt⟩, flush1_3 _, ?_⟩
  rw [mem_blk1_3]
  intro a
  match a with
  | ⟨0, _⟩ => show win1_3.index ⟨8 * (i 0).val + (i 1).val / 1024, hlt⟩ (0 : Fin 3) * 1 ≤ (i 0).val ∧ (i 0).val < win1_3.index ⟨8 * (i 0).val + (i 1).val / 1024, hlt⟩ (0 : Fin 3) * 1 + 1; rw [e0']; omega
  | ⟨1, _⟩ => show win1_3.index ⟨8 * (i 0).val + (i 1).val / 1024, hlt⟩ (1 : Fin 3) * 1024 ≤ (i 1).val ∧ (i 1).val < win1_3.index ⟨8 * (i 0).val + (i 1).val / 1024, hlt⟩ (1 : Fin 3) * 1024 + 1024; rw [e1']; omega
  | ⟨2, _⟩ => show win1_3.index ⟨8 * (i 0).val + (i 1).val / 1024, hlt⟩ (2 : Fin 3) * 64 ≤ (i 2).val ∧ (i 2).val < win1_3.index ⟨8 * (i 0).val + (i 1).val / 1024, hlt⟩ (2 : Fin 3) * 64 + 64; rw [e2]; omega

/-- After the second kernel its output array holds the node outputs. -/
theorem final1_3 (c : Dev nD) : (dat1 V c).arrAt 3 cfg1.N = nodeOf (bH V c) (bE V c) (bB V c) :=
  (dat1 V c).arrAt_eq_of_cover 3 (nodeOf (bH V c) (bE V c) (bB V c)) (fun t _ => flushed1_3 V c t) (cover1_3)

end Cert.KernelIdeal.Val1

end
-- ==== Proof.Result.lean ====
/-
  The idealized kernel program's result as one function of its arguments. The second kernel is entered with H as
  launched, with the edge features the first kernel left, and with the bias reshaped to a row; so the result array,
  the node outputs over those three, is the specification's hypergraph convolution of the four arguments.
-/
import proofs.«104569_j11639361372554_2_alg».proof.Proof.FrameI
import proofs.«104569_j11639361372554_2_alg».proof.Proof.Value0
import proofs.«104569_j11639361372554_2_alg».proof.Proof.Value1
import Idealize.ShloMosaic.Lib.StableHlo.Run
import Idealize.ShloMosaic.Lib.ValueLayout

noncomputable section

namespace Cert.KernelIdeal.Res

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Frm Cert.HyperConv
open scoped BigOperators

variable (m : (ℓ : Loc nD τ sig) → Buf (Elt Ideal) ℓ)

/-- The four arguments as launched. -/
abbrev mX (c : Dev nD) : ShX.Idx → EReal := (m ((c : Thread nD τ).loc main_arg0) : S4x8192x64.Idx → Elt Ideal .f32)
abbrev mH (c : Dev nD) : ShH.Idx → EReal := (m ((c : Thread nD τ).loc main_arg1) : S4x8192x2048.Idx → Elt Ideal .f32)
abbrev mT (c : Dev nD) : ShT.Idx → EReal := (m ((c : Thread nD τ).loc main_arg2) : S64x64.Idx → Elt Ideal .f32)
abbrev mB (c : Dev nD) : ShB.Idx → EReal := (m ((c : Thread nD τ).loc main_arg3) : S64.Idx → Elt Ideal .f32)

/-- The second kernel finds H as launched, -/
theorem entry_H (c : Dev nD) : Val1.bH (V2r m) c = mH m c := W2_main_arg1 m c

/-- the edge features where the first kernel left them, -/
theorem entry_E (c : Dev nD) : Val1.bE (V2r m) c = edgeFeat (mX m c) (mH m c) (mT m c) :=
  (W2_of_ne_v1 m c main_v0 (by decide)).trans ((W1_arr m c 3).trans (Val.final0_3 (V0r m) c))

/-- and the bias as a row. -/
theorem entry_B (c : Dev nD) (o : Fin 64) : Val1.bB (V2r m) c (ix2 (0 : Fin 1) o) = mB m c (ix1 o) := by
  have e : (V2r m c main_v1 : S1x64.Idx → Elt Ideal .f32)
      = shapeCast S1x64 (W1 m c (Proc.devRef .tc main_arg3) : S64.Idx → Elt Ideal .f32) shapeCasts_S64_S1x64 := by
    show StableHlo.after hostOps1 (W1 m c) (Proc.devRef .tc main_v1) = _
    after_results
    rfl
  show (V2r m c main_v1 : S1x64.Idx → Elt Ideal .f32) (ix2 (0 : Fin 1) o) = _
  rw [e, W1_main_arg3]
  exact shapeCast_a_1a_apply _ _ (0 : Fin 1) o

/-- The result array after the run is the hypergraph convolution of the arguments. -/
theorem result_eq (c : Dev nD) :
    (dat1 (V2r m) c).arrAt 3 cfg1.N = nodeOut (mX m c) (mH m c) (mT m c) (mB m c) := by
  rw [Val1.final1_3 (V2r m) c]
  funext j
  obtain ⟨b, n, o, rfl⟩ : ∃ (b : Fin 4) (n : Fin 8192) (o : Fin 64), j = ix3 b n o := ⟨j 0, j 1, j 2, eq_ix3 j⟩
  rw [Val1.nodeOf_apply, nodeOut_apply, entry_H, entry_E, entry_B]
  rfl

end Cert.KernelIdeal.Res

end
-- ==== Proof.RefSpec.lean ====
/-
  The reference program computes the hypergraph convolution: stage by stage — the projection x·θ, the edge degrees, the
  edge sums (written there as H(n, e) · (x·θ)(n, o), the factors in the other order), their quotient, the node degrees,
  the node sums and their quotient, the bias added — its result read at an index is the specification's. A host sum
  starts from a zero constant, which adds nothing.
-/
import proofs.«104569_j11639361372554_2_alg».proof.Proof.Gen.ReferenceIdeal.Read
import proofs.«104569_j11639361372554_2_alg».proof.Proof.Spec

noncomputable section

namespace Cert.ReferenceIdeal.RefValue

open Idealize.ShloMosaic Idealize.ShloMosaic.ValueIdx Cert.ReferenceIdeal Cert.ReferenceIdeal.Gen Cert.ReferenceIdeal.Read Cert.HyperConv
open scoped BigOperators

variable (x0 : (⟨S4x8192x64, .f32⟩ : BufTy).Contents (Elt Ideal)) (x1 : (⟨S4x8192x2048, .f32⟩ : BufTy).Contents (Elt Ideal))
  (x2 : (⟨S64x64, .f32⟩ : BufTy).Contents (Elt Ideal)) (x3 : (⟨S64, .f32⟩ : BufTy).Contents (Elt Ideal))

theorem v0_at (b : Fin 4) (n : Fin 8192) (o : Fin 64) : val_main_v0 (F := Ideal) x0 x2 (ix3 b n o) = proj x0 x2 b n o := by
  rw [val_main_v0_apply]
  refine Finset.sum_congr rfl fun i _ => congrArg₂ (· * ·) (congrArg x0 ?_) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem v1_at (b : Fin 4) (e : Fin 2048) : val_main_v1 (F := Ideal) x1 (ix2 b e) = edgeDeg x1 b e := by
  rw [val_main_v1_apply, val_main_cst_apply]
  show Ideal.ofBits .f32 0x00000000#32 + _ = _
  rw [Ideal.ofBits_zero_f32, zero_add]
  refine Finset.sum_congr rfl fun n _ => congrArg x1 ?_
  exact funext fun a => Fin.ext (by match a with | ⟨0, _⟩ => rfl | ⟨1, _⟩ => rfl | ⟨2, _⟩ => rfl)

theorem v2_at (b : Fin 4) (e : Fin 2048) (o : Fin 64) :
    val_main_v2 (F := Ideal) x0 x1 x2 (ix3 b e o) = edgeSum x0 x1 x2 b o e := by
  rw [val_main_v2_apply]
  refine Finset.sum_congr rfl fun n _ => ?_
  rw [show ridx_main_v2 (ix3 b e o) n = ix3 b n o from
      funext fun a => Fin.ext (by match a with | ⟨0, _⟩ => rfl | ⟨1, _⟩ => rfl | ⟨2, _⟩ => rfl), v0_at, mul_comm]
  refine congrArg (proj x0 x2 b n o * ·) (congrArg x1 ?_)
  exact funext fun a => Fin.ext (by match a with | ⟨0, _⟩ => rfl | ⟨1, _⟩ => rfl | ⟨2, _⟩ => rfl)

theorem v5_at (b : Fin 4) (e : Fin 2048) (o : Fin 64) :
    val_main_v5 (F := Ideal) x0 x1 x2 (ix3 b e o) = edgeFeat x0 x1 x2 (ix3 b o e) := by
  rw [val_main_v5_apply, v2_at, val_main_v4_apply, val_main_v3_apply,
    show idx_main_v3 (idx_main_v4 (ix3 b e o)) = ix2 b e from
      funext fun a => Fin.ext (by match a with | ⟨0, _⟩ => rfl | ⟨1, _⟩ => rfl), v1_at, edgeFeat_apply]
  rfl

theorem v6_at (b : Fin 4) (n : Fin 8192) : val_main_v6 (F := Ideal) x1 (ix2 b n) = ∑ e : Fin 2048, x1 (ix3 b n e) := by
  rw [val_main_v6_apply, val_main_cst_0_apply]
  show Ideal.ofBits .f32 0x00000000#32 + _ = _
  rw [Ideal.ofBits_zero_f32, zero_add]
  refine Finset.sum_congr rfl fun k _ => congrArg x1 ?_
  exact funext fun a => Fin.ext (by match a with | ⟨0, _⟩ => rfl | ⟨1, _⟩ => rfl | ⟨2, _⟩ => rfl)

theorem v7_at (b : Fin 4) (n : Fin 8192) (o : Fin 64) :
    val_main_v7 (F := Ideal) x0 x1 x2 (ix3 b n o) = ∑ e : Fin 2048, x1 (ix3 b n e) * edgeFeat x0 x1 x2 (ix3 b o e) := by
  rw [val_main_v7_apply]
  refine Finset.sum_congr rfl fun k _ => ?_
  rw [show ridx_main_v7 (ix3 b n o) k = ix3 b k o from
      funext fun a => Fin.ext (by match a with | ⟨0, _⟩ => rfl | ⟨1, _⟩ => rfl | ⟨2, _⟩ => rfl), v5_at]
  refine congrArg (· * edgeFeat x0 x1 x2 (ix3 b o k)) (congrArg x1 ?_)
  exact funext fun a => Fin.ext (by match a with | ⟨0, _⟩ => rfl | ⟨1, _⟩ => rfl | ⟨2, _⟩ => rfl)

/-- The reference's result is the specification's node outputs. -/
theorem ref_is_spec : val_main_v13 (F := Ideal) x0 x1 x2 x3 = nodeOut x0 x1 x2 x3 := by
  funext j
  obtain ⟨b, n, o, rfl⟩ : ∃ (b : Fin 4) (n : Fin 8192) (o : Fin 64), j = ix3 b n o := ⟨j 0, j 1, j 2, eq_ix3 j⟩
  rw [nodeOut_apply, val_main_v13_apply, val_main_v10_apply, v7_at, val_main_v9_apply, val_main_v8_apply,
    show idx_main_v8 (idx_main_v9 (ix3 b n o)) = ix2 b n from
      funext fun a => Fin.ext (by match a with | ⟨0, _⟩ => rfl | ⟨1, _⟩ => rfl), v6_at,
    val_main_v12_apply, val_main_v11_apply,
    show idx_main_v11 (idx_main_v12 (ix3 b n o)) = ix1 o from
      funext fun a => Fin.ext (by match a with | ⟨0, _⟩ => rfl)]
  rfl

end Cert.ReferenceIdeal.RefValue

end
-- ==== Proof.lean ====
/-
  The certificate of the hypergraph convolution kernel against its reference.

  Both programs compute, from node features x, an incidence array H, a projection θ and a bias: the projected
  features x·θ; each edge's feature, the sum over its nodes of the projected features weighted by H, divided by the
  edge's degree; each node's output, the sum over its edges of the edge features weighted by H, divided by the
  node's degree, plus the bias. The kernel program does it in two grid kernels: the first accumulates the edge sums
  and degrees over eight tiles of 1024 nodes per batch in two scratch buffers and stores their quotient at the last
  tile; the second forms the node outputs tile by tile. The reference does it with whole-array operations. On the
  extended reals the two agree index by index: a sum over the nodes is the sum of its tiles' sums taken in order
  from zero, products commute, and both programs divide by the same quotient operation; no finiteness is used.

  The three frames: each kernel program's run is the two kernel regions around a reshape, every argument array
  written by nothing; the reference's run is its generated run. The idealization removed two round trips through
  bfloat16, each stated by its rule.
-/
import proofs.«104569_j11639361372554_2_alg».proof.Defs
import proofs.«104569_j11639361372554_2_alg».proof.Proof.Gen.Kernel
import proofs.«104569_j11639361372554_2_alg».proof.Proof.Gen.KernelIdeal
import proofs.«104569_j11639361372554_2_alg».proof.Proof.Gen.ReferenceIdeal
import proofs.«104569_j11639361372554_2_alg».proof.Proof.Gen.ReferenceIdeal.Run
import proofs.«104569_j11639361372554_2_alg».proof.Proof.Gen.ReferenceIdeal.Read
import proofs.«104569_j11639361372554_2_alg».proof.Proof.Gen.Pre_finite_inputs
import proofs.«104569_j11639361372554_2_alg».proof.Proof.FrameK
import proofs.«104569_j11639361372554_2_alg».proof.Proof.FrameI
import proofs.«104569_j11639361372554_2_alg».proof.Proof.Result
import proofs.«104569_j11639361372554_2_alg».proof.Proof.RefSpec
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: a rounding to bfloat16 followed by the widening back, removed. -/
theorem preserves : Cert.preserves_Kernel_KernelIdeal :=
  ⟨IdealRules.truncf_extf.statement _ .f32 .bf16, IdealRules.truncf_extf.statement _ .f32 .bf16⟩

/-- Both programs end with the hypergraph convolution of the arguments in their result arrays. -/
theorem algebraic : Cert.algebraic_KernelIdeal_ReferenceIdeal := by
  intro m ρ m' ρ' _ hagree
  refine ⟨fun c => Cert.HyperConv.nodeOut (Cert.KernelIdeal.Res.mX m c) (Cert.KernelIdeal.Res.mH m c) (Cert.KernelIdeal.Res.mT m c) (Cert.KernelIdeal.Res.mB m c),
    (θ_run Cert.KernelIdeal.defs _ _).mono (fun _ h c => ⟨(h c).1.trans (Cert.KernelIdeal.Res.result_eq m c), (h c).2⟩)
      (Cert.KernelIdeal.Frm.run_result m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v13_eq _ _ _ _).trans (Cert.ReferenceIdeal.RefValue.ref_is_spec _ _ _ _)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
